-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S512x4096 : Shape := ⟨2, ![512, 4096]⟩
abbrev S512x1 : Shape := ⟨2, ![512, 1]⟩
abbrev S512 : Shape := ⟨1, ![512]⟩
abbrev S8192x4096 : Shape := ⟨2, ![8192, 4096]⟩
abbrev S1x11008 : Shape := ⟨2, ![1, 11008]⟩
abbrev S8192x11008 : Shape := ⟨2, ![8192, 11008]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008x4096, .bf16⟩
  | .hbm, ⟨4, _⟩ => ⟨S11008x1, .f32⟩
  | .hbm, ⟨5, _⟩ => ⟨S8192x4096, .f32⟩
  | .hbm, ⟨6, _⟩ => ⟨S8192x4096, .bf16⟩
  | .hbm, ⟨7, _⟩ => ⟨S1x11008, .f32⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S2048x4096, .bf16⟩
  | .local _ .vmem, ⟨11, _⟩ => ⟨S2048x4096, .bf16⟩
  | .local _ .vmem, ⟨12, _⟩ => ⟨S256x4096, .bf16⟩
  | .local _ .vmem, ⟨13, _⟩ => ⟨S256x4096, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [BitOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  shapeCasts_S4x2048x4096_S8192x4096 : S4x2048x4096.ShapeCasts S8192x4096
  shapeCasts_S512x4096_S512x4096 : S512x4096.ShapeCasts S512x4096
  shapeCasts_S11008x1_S1x11008 : S11008x1.ShapeCasts S1x11008
  shapeCasts_S11008_S1x11008 : S11008.ShapeCasts S1x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S8192x11008_S4x2048x11008 : S8192x11008.ShapeCasts S4x2048x11008
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x4096.size a < S11008x4096.size a
  hwx0_0 : ∀ i : grid0.Coords, EltTy.bits .f32 = 32 ∨ (Rect.unit (s := S11008x4096) (fun a => cc0_transform_0 i a * S512x4096.size a) (fun a => (Pipeline.Clip.of (cc0_transform_0 i a) (S512x4096.size a) (S11008x4096.size a)).extent (S512x4096.size a)) fun a => Pipeline.Clip.inb (Pipeline.Clip.ok_of (hstart0_0 i a))).WholeWords (EltTy.packing .f32)
  hwxs0_0 : ∀ i : grid0.Coords, EltTy.bits .f32 = 32 ∨ (Rect.unit (s := S512x4096) (fun _ => 0) (fun a => (Pipeline.Clip.of (cc0_transform_0 i a) (S512x4096.size a) (S11008x4096.size a)).extent (S512x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .bf16 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .bf16)
  hwxs0_1 : ∀ i : grid0.Coords, EltTy.bits .bf16 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x1.size a < S11008x1.size a
  hwx0_2 : ∀ i : grid0.Coords, EltTy.bits .f32 = 32 ∨ (Rect.unit (s := S11008x1) (fun a => cc0_transform_2 i a * S512x1.size a) (fun a => (Pipeline.Clip.of (cc0_transform_2 i a) (S512x1.size a) (S11008x1.size a)).extent (S512x1.size a)) fun a => Pipeline.Clip.inb (Pipeline.Clip.ok_of (hstart0_2 i a))).WholeWords (EltTy.packing .f32)
  hwxs0_2 : ∀ i : grid0.Coords, EltTy.bits .f32 = 32 ∨ (Rect.unit (s := S512x1) (fun _ => 0) (fun a => (Pipeline.Clip.of (cc0_transform_2 i a) (S512x1.size a) (S11008x1.size a)).extent (S512x1.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x4096.size a ≤ S8192x4096.size a
  hwx2_0 : ∀ i : grid2.Coords, EltTy.bits .bf16 = 32 ∨ (Rect.block (s := S8192x4096) S2048x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S11008x4096.size a
  hwx2_1 : ∀ i : grid2.Coords, EltTy.bits .bf16 = 32 ∨ (Rect.block (s := S11008x4096) S256x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x11008.size a
  hwx2_2 : ∀ i : grid2.Coords, EltTy.bits .f32 = 32 ∨ (Rect.block (s := S1x11008) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x11008.size a
  hwx2_3 : ∀ i : grid2.Coords, EltTy.bits .f32 = 32 ∨ (Rect.block (s := S1x11008) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x256.size a ≤ S8192x11008.size a
  hwx2_4 : ∀ i : grid2.Coords, EltTy.bits .f32 = 32 ∨ (Rect.block (s := S8192x11008) S2048x256.size (cc2_transform_4 i) (hinb2_4 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpecClip (Memref.whole main_arg1) S512x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0_0) S512x4096.size cc0_transform_1 reads0_1 true false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0_1) S512x1.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S2048x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S2048x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S_, .f32⟩
  | .hbm, ⟨4, _⟩ => ⟨S11008, .f32⟩
  | .hbm, ⟨5, _⟩ => ⟨S11008x1, .f32⟩
  | .hbm, ⟨6, _⟩ => ⟨S_, .f32⟩
  | .hbm, ⟨7, _⟩ => ⟨S11008x1, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S11008, .f32⟩
  | .hbm, ⟨14, _⟩ => ⟨S11008x1, .f32⟩
  | .hbm, ⟨15, _⟩ => ⟨S_, .f32⟩
  | .hbm, ⟨16, _⟩ => ⟨S11008x1, .f32⟩
  | .hbm, ⟨17, _⟩ => ⟨S11008x1, .f32⟩
  | .hbm, ⟨18, _⟩ => ⟨S11008x4096, .f32⟩
  | .hbm, ⟨19, _⟩ => ⟨S11008x4096, .f32⟩
  | .hbm, ⟨20, _⟩ => ⟨S11008x4096, .f32⟩
  | .hbm, ⟨21, _⟩ => ⟨S11008x4096, .f32⟩
  | .hbm, ⟨22, _⟩ => ⟨S11008x4096, .f32⟩
  | .hbm, ⟨23, _⟩ => ⟨S4x2048x11008, .f32⟩
  | .hbm, ⟨24, _⟩ => ⟨S1x1x11008, .f32⟩
  | .hbm, ⟨25, _⟩ => ⟨S4x2048x11008, .f32⟩
  | .hbm, ⟨26, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KiSign.lean ====
/-
  The first pallas_call: the weight matrix's 11008 rows in twenty-two blocks of 512 rows; the last block has only 256
  rows inside the matrix, so the transfers at that point move 256 rows and the rest of each 512-row staging buffer holds
  contents nothing determines. Each grid point loads its whole input buffer and stores two whole buffers computed from it: the
  signs of the row-centred entries and the rows' mean magnitudes. Both are computed row by row, so the rows that are written
  back depend only on the rows that were fetched: that is the one property of the arithmetic used here, taken as the
  hypothesis `Local0`. Stated at a parameter `V`, the buffers' contents when the call is entered.
-/
import proofs.«145953_j44349832298614_2_alg».proof.Proof.Gen.KernelIdeal.Launch
import proofs.«145953_j44349832298614_2_alg».proof.Proof.Gen.KernelIdeal.Skeleton
import proofs.«145953_j44349832298614_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t` filled out to the staging buffer's 512 rows with a fixed word. -/
def xin0 (c : Dev nD) (t : Fin cfg0.N) : Vec F S512x4096 .f32 :=
  win0_0.fill (grid0.coords t) (fun _ => Scalar.ofBits .f32 0#32) (iblk0 V c 0 t)

/-- The whole-buffer rectangles. -/
abbrev r0_a : Rect S512x4096 := Rect.unit (s := S512x4096) ![0, 0] S512x4096.size inb_S512x4096_S512x4096_0_0
abbrev r0_c : Rect S512x1 := Rect.unit (s := S512x1) ![0, 0] S512x1.size inb_S512x1_S512x1_0_0

/-- The sign buffer after the body: its one whole-buffer store. -/
def out0_1 (x0 : Vec F S512x4096 .f32) : Vec F S512x4096 .bf16 :=
  View.canon [⟨r0_a, k0_pay3 (View.ld x0 r0_a)⟩]
/-- The scale buffer after the body: its one whole-buffer store. -/
def out0_2 (x0 : Vec F S512x4096 .f32) : Vec F S512x1 .f32 :=
  View.canon [⟨r0_c, k0_pay2 (View.ld x0 r0_a)⟩]

theorem cover0_1 (p0 : Vec F S512x4096 .bf16) (y : S512x4096.Idx) :
    ∃ pc ∈ ([⟨r0_a, p0⟩] : List (View.Piece (Elt F) S512x4096 .bf16)), y ∈ pc.1.set :=
  View.cover_of_tiled [⟨r0_a, p0⟩] S512x4096.size (by rfl) y
theorem cover0_2 (p0 : Vec F S512x1 .f32) (y : S512x1.Idx) :
    ∃ pc ∈ ([⟨r0_c, p0⟩] : List (View.Piece (Elt F) S512x1 .f32)), y ∈ pc.1.set :=
  View.cover_of_tiled [⟨r0_c, p0⟩] S512x1.size (by rfl) y

/-- The rows written back depend only on the rows fetched: two input buffers that agree on the part a point's fetch
    fills give output buffers that agree on the parts its write-backs empty. -/
def Local0 : Prop :=
  ∀ (t : Fin cfg0.N) (x x' : Vec F S512x4096 .f32), win0_0.cut (grid0.coords t) x = win0_0.cut (grid0.coords t) x' →
    win0_1.cut (grid0.coords t) (out0_1 x) = win0_1.cut (grid0.coords t) (out0_1 x')
    ∧ win0_2.cut (grid0.coords t) (out0_2 x) = win0_2.cut (grid0.coords t) (out0_2 x')

set_option maxHeartbeats 1000000 in
/-- The body on whole staging buffers: the input's contents are kept, the outputs' become `out0_1`, `out0_2` of them. -/
theorem sound_kernel0 (c : Dev nD) (E : Set ℕ) (i : grid0.Coords)
    (arg1 : Memref sig .tc .vmem S512x4096 .f32) (harg1 : arg1.IsWhole) (arg2 : Memref sig .tc .vmem S512x4096 .bf16) (harg2 : arg2.IsWhole)
    (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__binarize_kernel i arg1 harg1 arg2 harg2 arg3 harg3) K := by
  simp only [cc0__binarize_kernel_eq_skeleton]; unfold cc0__binarize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of this call on core `c`: the arrays as the call finds them; after the body the input's buffer at its
    filled-out block and the outputs' at `out0_1`, `out0_2` of it. Only the parts the transfers move are ever read. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => out0_1 (xin0 V c t)
    | ⟨2, _⟩ => out0_2 (xin0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xin0 V c t := by dsimp only [dat0]
theorem after0_1 (c : Dev nD) (t : Fin cfg0.N) : (dat0 V c).after 1 t = out0_1 (xin0 V c t) := by dsimp only [dat0]
theorem after0_2 (c : Dev nD) (t : Fin cfg0.N) : (dat0 V c).after 2 t = out0_2 (xin0 V c t) := by dsimp only [dat0]

/-- The input's buffer as the body finds it: just fetched, the block on the part the fetch fills, `d` elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: every window is loose, so each buffer is stated on the part its transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t)))))

theorem sound_body0 (hloc : Local0 (F := F)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0]
  iapply (sound_kernel0 (F := F) c Set.univ _ _ _ _ _ _ _ (win0_0.fill (grid0.coords t) d0 (iblk0 V c 0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  have hcut : win0_0.cut (grid0.coords t) (win0_0.fill (grid0.coords t) d0 (iblk0 V c 0 t))
      = win0_0.cut (grid0.coords t) (xin0 V c t) := by
    unfold xin0; rw [win0_0.cut_fill, win0_0.cut_fill]
  have hl := hloc t _ _ hcut
  isplitl [H0]
  · iexists d0
    unfold xin0; rw [win0_0.cut_fill]; iexact H0
  isplitl [H1]
  · iexists out0_1 (win0_0.fill (grid0.coords t) d0 (iblk0 V c 0 t))
    rw [win0_1.fill_congr_cut _ hl.1]; iexact H1
  · iexists out0_2 (win0_0.fill (grid0.coords t) d0 (iblk0 V c 0 t))
    rw [win0_2.fill_congr_cut _ hl.2]; iexact H2

/-- The body obligation of this call, at every point. -/
theorem body_obligation0 (hloc : Local0 (F := F)) (c : Dev nD) :
    BodyObligationLoose (dat0 (F := F) V c) (defs₀ (F := F)) Variants.none () Set.univ := fun t => by
  rw [bigSep_W0, bigSep_W0]
  exact sound_body0 V hloc c t

end Cert.KernelIdeal.Hand

end
-- ==== Proof.KiCast.lean ====
/-
  The second pallas_call: the activations' 8192 rows, in sixteen blocks of 512 rows, are copied block by block into
  an array of the narrower float format. Each grid point loads its whole input block and stores its conversion as the whole
  output block; the output block at a point is therefore the conversion of the input block there, and nothing else of the
  machine's state is used. Stated at a parameter `V`, the buffers' contents when the call is entered.
-/
import proofs.«145953_j44349832298614_2_alg».proof.Proof.Gen.KernelIdeal.Launch
import proofs.«145953_j44349832298614_2_alg».proof.Proof.Gen.KernelIdeal.Skeleton
import proofs.«145953_j44349832298614_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangle of a 512 × 4096 buffer. -/
abbrev r1_0 : Rect S512x4096 := Rect.unit (s := S512x4096) ![0, 0] S512x4096.size inb_S512x4096_S512x4096_0_0

/-- The output buffer after the body: its one whole-block store of the converted input block. -/
def out1_1 (x0 : Vec F S512x4096 .f32) : Vec F S512x4096 .bf16 :=
  View.canon [⟨r1_0, k1_pay1 (View.ld x0 r1_0)⟩]

/-- The one store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The body on whole staging buffers: the input's contents are kept, the output's become `out1_1` of them. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this call on core `c`: the arrays as the call finds them; after the body the input's buffer at its
    block and the output's at the converted block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of this call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiProduct.lean ====
/-
  The third pallas_call: a grid of 4 × 43 points; point (i, j) loads block i (2048 rows) of the converted activations,
  block j (256 rows) of the sign matrix and blocks j (256 entries) of the scale row and of the bias row, and stores the
  2048 × 256 block (i, j) of the result: the product of the two matrix blocks over their shared 4096 columns, times the
  scale row, plus the bias row. The output block at a point is that function of the four input blocks there. Stated at
  a parameter `V`, the buffers' contents when the call is entered.
-/
import proofs.«145953_j44349832298614_2_alg».proof.Proof.Gen.KernelIdeal.Launch
import proofs.«145953_j44349832298614_2_alg».proof.Proof.Gen.KernelIdeal.Skeleton
import proofs.«145953_j44349832298614_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles of the five buffers' shapes. -/
abbrev r2_0 : Rect S2048x4096 := Rect.unit (s := S2048x4096) ![0, 0] S2048x4096.size inb_S2048x4096_S2048x4096_0_0
abbrev r2_1 : Rect S256x4096 := Rect.unit (s := S256x4096) ![0, 0] S256x4096.size inb_S256x4096_S256x4096_0_0
abbrev r2_2 : Rect S1x256 := Rect.unit (s := S1x256) ![0, 0] S1x256.size inb_S1x256_S1x256_0_0
abbrev r2_4 : Rect S2048x256 := Rect.unit (s := S2048x256) ![0, 0] S2048x256.size inb_S2048x256_S2048x256_0_0

/-- The output buffer after the body: its one whole-block store of the scaled, biased product of the input blocks. -/
def out2_4 (x0 : Vec F S2048x4096 .bf16) (x1 : Vec F S256x4096 .bf16) (x2 : Vec F S1x256 .f32) (x3 : Vec F S1x256 .f32) : Vec F S2048x256 .f32 :=
  View.canon [⟨r2_4, k2_pay1 (View.ld x0 r2_0) (View.ld x1 r2_1) (View.ld x2 r2_2) (View.ld x3 r2_2)⟩]

/-- The one store covers the buffer. -/
theorem cover2_4 (p0 : Vec F S2048x256 .f32) (y : S2048x256.Idx) :
    ∃ pc ∈ ([⟨r2_4, p0⟩] : List (View.Piece (Elt F) S2048x256 .f32)), y ∈ pc.1.set :=
  View.cover_of_tiled [⟨r2_4, p0⟩] S2048x256.size (by rfl) y

set_option maxHeartbeats 1000000 in
/-- The body on whole staging buffers: the inputs' contents are kept, the output's become `out2_4` of them. -/
theorem sound_kernel2 (c : Dev nD) (E : Set ℕ) (i : grid2.Coords)
    (arg2 : Memref sig .tc .vmem S2048x4096 .bf16) (harg2 : arg2.IsWhole) (arg3 : Memref sig .tc .vmem S256x4096 .bf16) (harg3 : arg3.IsWhole)
    (arg4 : Memref sig .tc .vmem S1x256 .f32) (harg4 : arg4.IsWhole) (arg5 : Memref sig .tc .vmem S1x256 .f32) (harg5 : arg5.IsWhole)
    (arg6 : Memref sig .tc .vmem S2048x256 .f32) (harg6 : arg6.IsWhole)
    (x0 : Vec F S2048x4096 .bf16) (x1 : Vec F S256x4096 .bf16) (x2 : Vec F S1x256 .f32) (x3 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this call on core `c`: the arrays as the call finds them; after the body each input's buffer at its
    block and the output's at `out2_4` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The whole run of the three pallas_calls and the reshapes between them. The buffers' contents at each boundary of the
  program are a fold from the launch memory: a pallas_call leaves its arrays at what its write-backs fold to and every
  other buffer as it was; a stretch of reshapes applies them. Each call is entered from the contents at its boundary and
  left at the next one's, the generator register and the (empty) debts riding along; the launch theorem for a sequence
  of calls and host stretches then gives: every fair execution terminates without fault, with every unscoped buffer at
  the last boundary's contents. The arguments are written by nothing, so they read back as launched.
-/
import proofs.«145953_j44349832298614_2_alg».proof.Proof.KiSign
import proofs.«145953_j44349832298614_2_alg».proof.Proof.KiCast
import proofs.«145953_j44349832298614_2_alg».proof.Proof.KiProduct
import proofs.«145953_j44349832298614_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b

/-- At call 0's exit: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the first reshape. -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b

/-- At call 1's exit: its arrays at what the pipeline leaves, every other buffer as entered. -/
def W3 (c : Dev nD) : Valuation τ sig (Elt F) :=
  Pipeline.withArrays spec1 c (W2 m ρ c) fun w => (dat1 (V2r m ρ) c).arrAt w cfg1.N
theorem W3_arr (c : Dev nD) (w : Fin cfg1.W) :
    W3 m ρ c (Proc.devRef .tc (Pipeline.arrRef spec1 w)) = (dat1 (V2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3r : (c : Dev nD) → (b : Ref sig .tc) → Buf (Elt F) ((c : Thread nD τ).loc b) := fun c b => W3 m ρ c b
theorem hF1 (c : Dev nD) (w : Fin cfg1.W) : (dat1 (V2r m ρ) c).arrAt w cfg1.N = V3r m ρ c (Pipeline.arrRef spec1 w) :=
  (W3_arr m ρ c w).symm
theorem hrest1 (c : Dev nD) : ∀ b, b ∉ Finset.univ.image (Pipeline.arrRef spec1) → V3r m ρ c b = V2r m ρ c b :=
  fun b hb => W3_of_ne m ρ c b fun w e => hb (Finset.mem_image.mpr ⟨w, Finset.mem_univ _, e⟩)

/-- After the second and third reshapes. -/
abbrev W4 : Dev nD → Valuation τ sig (Elt F) := fun c => StableHlo.after hostOps2 (W3 m ρ c)
abbrev V4r : (c : Dev nD) → (b : Ref sig .tc) → Buf (Elt F) ((c : Thread nD τ).loc b) := fun c b => W4 m ρ c b

/-- At call 2's exit: its arrays at what the pipeline leaves, every other buffer as entered. -/
def W5 (c : Dev nD) : Valuation τ sig (Elt F) :=
  Pipeline.withArrays spec2 c (W4 m ρ c) fun w => (dat2 (V4r m ρ) c).arrAt w cfg2.N
theorem W5_arr (c : Dev nD) (w : Fin cfg2.W) :
    W5 m ρ c (Proc.devRef .tc (Pipeline.arrRef spec2 w)) = (dat2 (V4r m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5r : (c : Dev nD) → (b : Ref sig .tc) → Buf (Elt F) ((c : Thread nD τ).loc b) := fun c b => W5 m ρ c b
theorem hF2 (c : Dev nD) (w : Fin cfg2.W) : (dat2 (V4r m ρ) c).arrAt w cfg2.N = V5r m ρ c (Pipeline.arrRef spec2 w) :=
  (W5_arr m ρ c w).symm
theorem hrest2 (c : Dev nD) : ∀ b, b ∉ Finset.univ.image (Pipeline.arrRef spec2) → V5r m ρ c b = V4r m ρ c b :=
  fun b hb => W5_of_ne m ρ c b fun w e => hb (Finset.mem_image.mpr ⟨w, Finset.mem_univ _, e⟩)

/-- After the last reshape: the contents the program ends with. -/
abbrev W6 : Dev nD → Valuation τ sig (Elt F) := fun c => StableHlo.after hostOps3 (W5 m ρ c)

/-! ## The arguments end as launched -/

/-- `main_arg0` ends as launched: no reshape writes it and no call's write-backs touch it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps3 _ hostOps3_writes (by decide)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

/-- `main_arg1` ends as launched: no reshape writes it and no call's write-backs touch it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps3 _ hostOps3_writes (by decide)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0r m ρ) c).arrAt_in 0 rfl _).trans (A_eq0 (V0r m ρ) c 0))
    _ = m ((c : Thread nD τ).loc main_arg1) := rfl

/-- `main_arg2` ends as launched: no reshape writes it and no call's write-backs touch it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps3 _ hostOps3_writes (by decide)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-! ## The proof data family and the thread state -/

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V2r m ρ) c
  | ⟨2, _⟩ => fun c => dat2 (V4r m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A stretch of reshapes as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 over the thread state: entered from every unscoped buffer at `W0`, left at `W1`. Its arrays are
    split out of the unscoped buffers and put back at the exit contents; the generator register goes into the call's
    invariant and comes out; nothing is owed; the kernel has no semaphore of its own. -/
def reg0 (hloc : Local0 (F := F)) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0r m ρ) hloc c
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are
    split out of the unscoped buffers and put back at the exit contents; the generator register goes into the call's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2r m ρ c) (V3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W4`, left at `W5`. Its arrays are
    split out of the unscoped buffers and put back at the exit contents; the generator register goes into the call's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4r m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4r m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4r m ρ c) (V5r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs (hloc : Local0 (F := F)) : List (Pipeline.Seg (pcfgs (F := F)) adm (pdats m ρ) () defs₀ 𝒱₀ L lv) :=
  [ .region (reg0 m ρ hloc),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]

theorem main_run (hloc : Local0 (F := F)) (c : Dev nD) : main (F := F) c = Pipeline.Seg.run (segs m ρ hloc) := (main_chain c).trans (by chain_rfl)

set_option backward.isDefEq.respectTransparency.types false in
/-- Every fair execution of the program from memory `m` with zero counters terminates without fault, and every final
    state holds each unscoped buffer at the last boundary's contents `W6`. -/
theorem run_all (hloc : Local0 (F := F)) : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KvChain.lean ====
/-
  Which boundary each buffer's contents come from. The converted activations that the third pallas_call reads are what
  the second left; the sign matrix and the scale column are what the first left, untouched by everything in between; the
  activations and the bias reach the reshapes that read them as launched; the product array is what the third call left.
-/
import proofs.«145953_j44349832298614_2_alg».proof.Proof.KiRun

set_option maxRecDepth 16384

noncomputable section

namespace Cert.KernelIdeal.HandValue

open Cert.KernelIdeal Cert.KernelIdeal.Gen Cert.KernelIdeal.Hand
open Idealize.ShloMosaic Idealize.ShloMosaic.TcCoe
open Idealize.ShloMosaic.Pipeline (Dat)

variable {F : FTy → Type} [FloatOps F]
variable (m : (ℓ : Loc nD τ sig) → Buf (Elt F) ℓ) (ρ : Dev nD → PrngReg)

/-- The converted activations, as the third call finds them, are what the second call left. -/
theorem conv_eq (c : Dev nD) : W4 m ρ c (Proc.devRef .tc main_v2) = (dat1 (V2r m ρ) c).arrAt 1 cfg1.N :=
  (StableHlo.after_of_writes_sub hostOps2 _ hostOps2_writes (by decide)).trans (W3_arr m ρ c 1)

/-- The sign matrix, as the third call finds it, is what the first call left. -/
theorem sign_eq (c : Dev nD) : W4 m ρ c (Proc.devRef .tc main_v0_0) = (dat0 (V0r m ρ) c).arrAt 1 cfg0.N :=
  calc W4 m ρ c (Proc.devRef .tc main_v0_0)
    _ = W3 m ρ c (Proc.devRef .tc main_v0_0) := StableHlo.after_of_writes_sub hostOps2 _ hostOps2_writes (by decide)
    _ = W2 m ρ c (Proc.devRef .tc main_v0_0) := W3_of_ne m ρ c main_v0_0 (by decide)
    _ = W1 m ρ c (Proc.devRef .tc main_v0_0) := StableHlo.after_of_writes_sub hostOps1 _ hostOps1_writes (by decide)
    _ = (dat0 (V0r m ρ) c).arrAt 1 cfg0.N := W1_arr m ρ c 1

/-- The scale column, as the second stretch of reshapes finds it, is what the first call left. -/
theorem scale_eq (c : Dev nD) : W3 m ρ c (Proc.devRef .tc main_v0_1) = (dat0 (V0r m ρ) c).arrAt 2 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := StableHlo.after_of_writes_sub hostOps1 _ hostOps1_writes (by decide)
    _ = (dat0 (V0r m ρ) c).arrAt 2 cfg0.N := W1_arr m ρ c 2

/-- The activations reach the first reshape as launched. -/
theorem act_eq (c : Dev nD) : W1 m ρ c (Proc.devRef .tc main_arg0) = m ((c : Thread nD τ).loc main_arg0) :=
  (W1_of_ne m ρ c main_arg0 (by decide)).trans rfl

/-- The bias reaches its reshape as launched. -/
theorem bias_eq (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-- The product array, as the last reshape finds it, is what the third call left. -/
theorem prod_eq (c : Dev nD) : W5 m ρ c (Proc.devRef .tc main_v5) = (dat2 (V4r m ρ) c).arrAt 4 cfg2.N :=
  W5_arr m ρ c 4

end Cert.KernelIdeal.HandValue

end
-- ==== Proof.Spec.lean ====
/-
  What the binarized linear layer computes at one output entry, on the extended reals.

  A weight row `r` of 4096 entries is centred by its mean, `centred r k = r k - (∑ r) / 4096`; its scale is the mean
  magnitude of the centred row, `rowScale r = (∑ |centred r k|) / 4096`; each centred entry is replaced by its sign,
  written as the two comparisons the vector unit makes of it (`sgn`: where the magnitude is positive, `-1` below zero and
  `1` otherwise; where it is not, the entry itself, which is then zero). An output entry pairs a row `x` of the activations
  with a weight row and a bias: `(∑ k, x k · sgn (centred r k)) · rowScale r + b`.
-/
import Idealize.ShloMosaic.PureOps.Ideal
import Idealize.ShloMosaic.Lib.ValueIdx

noncomputable section

namespace Cert.Xnor

open Idealize.ShloMosaic

/-- The mean of a row of 4096 entries: their sum over 4096. -/
def rowMean (r : Fin 4096 → Ideal .f32) : Ideal .f32 :=
  FloatOps.divf (∑ k : Fin 4096, r k) (FloatOps.ofBits .f32 0x45800000#32)

/-- A row's entry less the row's mean. -/
def centred (r : Fin 4096 → Ideal .f32) (k : Fin 4096) : Ideal .f32 :=
  FloatOps.subf (r k) (rowMean r)

/-- The mean magnitude of the centred row. -/
def rowScale (r : Fin 4096 → Ideal .f32) : Ideal .f32 :=
  FloatOps.divf (∑ k : Fin 4096, FloatOps.absf (centred r k)) (FloatOps.ofBits .f32 0x45800000#32)

/-- The sign of an entry by two comparisons: where `|y| > 0`, `-1` if `y < 0` and `1` otherwise; else `y` itself. -/
def sgn (y : Ideal .f32) : Ideal .f32 :=
  Scalar.select (FloatOps.cmpf .ogt (FloatOps.absf y) (FloatOps.ofBits .f32 0x00000000#32))
    (Scalar.select (FloatOps.cmpf .olt y (FloatOps.ofBits .f32 0x00000000#32))
      (FloatOps.ofBits .f32 0xBF800000#32) (FloatOps.ofBits .f32 0x3F800000#32))
    y

/-- One output entry: the activations' row against the signs of the centred weight row, scaled by the row's scale, plus
    the bias. -/
def entry (x r : Fin 4096 → Ideal .f32) (b : Ideal .f32) : Ideal .f32 :=
  FloatOps.addf (FloatOps.mulf (∑ k : Fin 4096, FloatOps.mulf (x k) (sgn (centred r k))) (rowScale r)) b

end Cert.Xnor

end
-- ==== Proof.Payloads.lean ====
/-
  The three kernels' arithmetic read at one entry, on the extended reals.

  The binarize kernel works on a block of 512 weight rows of 4096 entries. Its three values at a row `p` are functions of
  that row alone: the centred entry `w[p,k] - (∑ w[p,·]) / 4096`, the row's scale `(∑ |centred|) / 4096` (kept as a
  `[512, 1]` column), and the sign of the centred entry by two comparisons. The row sums are sums along the lanes of the
  block; the mean is a column broadcast back along the rows. The cast kernel is the identity on the extended reals. The
  matmul kernel contracts a block of 2048 activation rows with a block of 256 sign rows, both along their 4096 lanes, into
  a zero accumulator, multiplies by the column's scale and adds the column's bias, the scale and the bias each one row of
  256 entries broadcast down the 2048 rows.
-/
import proofs.«145953_j44349832298614_2_alg».proof.Proof.Spec
import proofs.«145953_j44349832298614_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Xnor.Payloads

open Idealize.ShloMosaic Idealize.ShloMosaic.ValueIdx Cert.KernelIdeal Cert.KernelIdeal.Gen

/-! ## Layout steps of a row statistic kept as a column -/

/-- A vector of `a` entries viewed as an `[a, 1]` column reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a `[512, 4096]` block, at row `p`, is the sum of that row's 4096 entries. -/
theorem rowSum_apply (src : FVec Ideal S512x4096 .f32) (h : S512x4096.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 4096, src (ix2 p k) := by
  refine (Ideal.multiReduction_add_single src _ h hφ hacc (ix1 p)).trans ?_
  show ∑ k : Fin 4096, src (h.lift (ix1 p) k) = _
  refine Finset.sum_congr rfl fun k _ => congrArg src (funext fun a => Fin.ext ?_)
  match a with
  | ⟨0, _⟩ => rfl
  | ⟨1, _⟩ => rfl

/-! ## The binarize block at one entry -/

/-- The centred block: an entry less its row's mean. Row `p` of the result depends on row `p` of the block only. -/
theorem pay1_apply (v0 : Vec Ideal S512x4096 .f32) (p : Fin 512) (k : Fin 4096) :
    k0_pay1 (F := Ideal) v0 (ix2 p k) = Cert.Xnor.centred (fun k' => v0 (ix2 p k')) k := by
  unfold k0_pay1 Cert.Xnor.centred Cert.Xnor.rowMean
  refine congrArg (FloatOps.subf (F := Ideal) (φ := .f32) (v0 (ix2 p k))) ?_
  refine (broadcastTo_a1_ab_apply _ broadcasts_S512x1_S512x4096 p k).trans ?_
  refine congrArg (fun s : Ideal .f32 => FloatOps.divf s (FloatOps.ofBits .f32 0x45800000#32)) ?_
  refine (shapeCast_a_a1_apply _ shapeCasts_S512_S512x1 p (0 : Fin 1)).trans ?_
  exact rowSum_apply v0 _ _ _ p

/-- The row scales: the mean magnitude of the centred row. Row `p` of the result depends on row `p` of the block only. -/
theorem pay2_apply (v0 : Vec Ideal S512x4096 .f32) (p : Fin 512) :
    k0_pay2 (F := Ideal) v0 (ix2 p (0 : Fin 1)) = Cert.Xnor.rowScale (fun k' => v0 (ix2 p k')) := by
  unfold k0_pay2 Cert.Xnor.rowScale
  refine congrArg (fun s : Ideal .f32 => FloatOps.divf s (FloatOps.ofBits .f32 0x45800000#32)) ?_
  refine (shapeCast_a_a1_apply _ shapeCasts_S512_S512x1 p (0 : Fin 1)).trans ?_
  refine (rowSum_apply _ _ _ _ p).trans ?_
  refine Finset.sum_congr rfl fun k _ => ?_
  exact congrArg (FloatOps.absf (F := Ideal) (φ := .f32)) (pay1_apply v0 p k)

/-- The signs: the two comparisons of the centred entry; narrowing to sixteen bits changes nothing on the extended
    reals. Row `p` of the result depends on row `p` of the block only. -/
theorem pay3_apply (v0 : Vec Ideal S512x4096 .f32) (p : Fin 512) (k : Fin 4096) :
    k0_pay3 (F := Ideal) v0 (ix2 p k) = Cert.Xnor.sgn (Cert.Xnor.centred (fun k' => v0 (ix2 p k')) k) := by
  have e : k0_pay3 (F := Ideal) v0 (ix2 p k) = Cert.Xnor.sgn (k0_pay1 (F := Ideal) v0 (ix2 p k)) := rfl
  exact e.trans (congrArg Cert.Xnor.sgn (pay1_apply v0 p k))

/-! ## The cast block -/

/-- Narrowing the activations to sixteen bits changes nothing on the extended reals. -/
theorem cast_apply (v0 : Vec Ideal S512x4096 .f32) (j : S512x4096.Idx) : k1_pay1 (F := Ideal) v0 j = v0 j := by
  unfold k1_pay1
  exact congrFun (shapeCast_self v0 shapeCasts_S512x4096_S512x4096) j

/-! ## The matmul block at one entry -/

/-- The product's left operand index at output `i` and contraction position `c`: the output's row on axis 0 … -/
theorem lhs_row (i : S2048x256.Idx) (c : dot_S2048x4096_S256x4096_S2048x256_1_1_0_0_n_n.contr.Idx) :
    (dot_S2048x4096_S256x4096_S2048x256_1_1_0_0_n_n.lhsIdx i c 0).val = (i 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl
/-- … and the contraction position on axis 1. -/
theorem lhs_lane (i : S2048x256.Idx) (c : dot_S2048x4096_S256x4096_S2048x256_1_1_0_0_n_n.contr.Idx) :
    (dot_S2048x4096_S256x4096_S2048x256_1_1_0_0_n_n.lhsIdx i c 1).val = (c ⟨0, by decide⟩).val :=
  dot_S2048x4096_S256x4096_S2048x256_1_1_0_0_n_n.lhsIdx_val_of_single rfl i c
/-- The right operand index: the output's column on axis 0 … -/
theorem rhs_row (i : S2048x256.Idx) (c : dot_S2048x4096_S256x4096_S2048x256_1_1_0_0_n_n.contr.Idx) :
    (dot_S2048x4096_S256x4096_S2048x256_1_1_0_0_n_n.rhsIdx i c 0).val = (i 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl
/-- … and the contraction position on axis 1. -/
theorem rhs_lane (i : S2048x256.Idx) (c : dot_S2048x4096_S256x4096_S2048x256_1_1_0_0_n_n.contr.Idx) :
    (dot_S2048x4096_S256x4096_S2048x256_1_1_0_0_n_n.rhsIdx i c 1).val = (c ⟨0, by decide⟩).val :=
  dot_S2048x4096_S256x4096_S2048x256_1_1_0_0_n_n.rhsIdx_val_of_single rfl i c

/-- A product of a `[2048, 4096]` block with a `[256, 4096]` block, both contracted along their lanes, into a zero
    accumulator: entry `(p, q)` is the sum over the lane `k` of row `p` of the first times row `q` of the second. -/
theorem matmul_rows_apply (l : FVec Ideal S2048x4096 .bf16) (r : FVec Ideal S256x4096 .bf16) (p : Fin 2048) (q : Fin 256) :
    matmul dot_S2048x4096_S256x4096_S2048x256_1_1_0_0_n_n none l r (constant S2048x256 .f32 0x00000000#32) (ix2 p q)
      = ∑ k : Fin 4096, l (ix2 p k) * r (ix2 q k) := by
  simp only [matmul]
  rw [Ideal.matmul_constant_zero_apply,
    ← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p q)
      ((contrEquiv1 dot_S2048x4096_S256x4096_S2048x256_1_1_0_0_n_n 4096 rfl rfl).symm k) = ix2 p k :=
    funext fun a => Fin.ext (by
      match a with
      | ⟨0, _⟩ => exact lhs_row _ _
      | ⟨1, _⟩ => exact (lhs_lane _ _).trans hk)
  have er : dot_S2048x4096_S256x4096_S2048x256_1_1_0_0_n_n.rhsIdx (ix2 p q)
      ((contrEquiv1 dot_S2048x4096_S256x4096_S2048x256_1_1_0_0_n_n 4096 rfl rfl).symm k) = ix2 q k :=
    funext fun a => Fin.ext (by
      match a with
      | ⟨0, _⟩ => exact rhs_row _ _
      | ⟨1, _⟩ => exact (rhs_lane _ _).trans hk)
  rw [el, er]

/-- The matmul block: the product's entry times the output column's scale, plus its bias. -/
theorem mm_apply (v0 : Vec Ideal S2048x4096 .bf16) (v2 : Vec Ideal S256x4096 .bf16) (v5 v9 : Vec Ideal S1x256 .f32)
    (p : Fin 2048) (q : Fin 256) :
    k2_pay1 (F := Ideal) v0 v2 v5 v9 (ix2 p q)
      = ((∑ k : Fin 4096, (v0 (ix2 p k) : EReal) * (v2 (ix2 q k) : EReal)) * (v5 (ix2 (0 : Fin 1) q) : EReal)
          + (v9 (ix2 (0 : Fin 1) q) : EReal) : EReal) := by
  have h4 : matmul (F := Ideal) (φ₁ := .bf16) (φ₂ := .bf16) dot_S2048x4096_S256x4096_S2048x256_1_1_0_0_n_n none
        (shapeCast S2048x4096 v0 shapeCasts_S2048x4096_S2048x4096) (shapeCast S256x4096 v2 shapeCasts_S256x4096_S256x4096)
        (constant (F := Ideal) S2048x256 .f32 0x00000000#32) (ix2 p q)
      = ∑ k : Fin 4096, (v0 (ix2 p k) : EReal) * (v2 (ix2 q k) : EReal) := by
    rw [shapeCast_self, shapeCast_self]
    exact matmul_rows_apply v0 v2 p q
  have h7 : broadcastTo S2048x256 (shapeCast S1x256 v5 shapeCasts_S1x256_S1x256) broadcasts_S1x256_S2048x256 (ix2 p q)
      = v5 (ix2 (0 : Fin 1) q) := by
    rw [shapeCast_self]
    exact broadcastTo_1b_ab_apply v5 broadcasts_S1x256_S2048x256 p q
  have h11 : broadcastTo S2048x256 (shapeCast S1x256 v9 shapeCasts_S1x256_S1x256) broadcasts_S1x256_S2048x256 (ix2 p q)
      = v9 (ix2 (0 : Fin 1) q) := by
    rw [shapeCast_self]
    exact broadcastTo_1b_ab_apply v9 broadcasts_S1x256_S2048x256 p q
  unfold k2_pay1
  exact congrArg₂ (fun a b : EReal => a + b) (congrArg₂ (fun a b : EReal => a * b) h4 h7) h11

end Cert.Xnor.Payloads

end
-- ==== Proof.KvLocal.lean ====
/-
  On the extended reals both outputs of the first pallas_call are computed row by row: the sign block's entry (p, k) and
  the scale block's entry p are functions of row p of the input buffer alone. So two input buffers that agree on the
  rows a point's fetch fills give outputs that agree on the rows its write-backs empty (the same rows: the three windows
  move together and have the same number of rows inside their arrays at every point).
-/
import proofs.«145953_j44349832298614_2_alg».proof.Proof.KiSign
import proofs.«145953_j44349832298614_2_alg».proof.Proof.Payloads
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe

variable {F : FTy → Type} [FloatOps F]

theorem hz : (![0, 0] : Fin 2 → Nat) = fun _ => 0 := funext fun a => by fin_cases a <;> rfl

/-- The sign buffer after the body is the sign payload of the whole input buffer. -/
theorem out0_1_eq (x : Vec F S512x4096 .f32) : out0_1 x = k0_pay3 x := by
  unfold out0_1
  rw [View.canon_unit_zero hz]
  simp only [View.ld_unit_zero (S := S512x4096) hz]

/-- The scale buffer after the body is the scale payload of the whole input buffer. -/
theorem out0_2_eq (x : Vec F S512x4096 .f32) : out0_2 x = k0_pay2 x := by
  unfold out0_2
  rw [View.canon_unit_zero hz]
  simp only [View.ld_unit_zero (S := S512x4096) hz]

/-- At every point the three windows have the same number of rows inside their arrays, and the input's rows are whole. -/
theorem xsize_facts : ∀ t : Fin cfg0.N,
    win0_1.xsize (grid0.coords t) (0 : Fin 2) = win0_0.xsize (grid0.coords t) (0 : Fin 2)
    ∧ win0_2.xsize (grid0.coords t) (0 : Fin 2) = win0_0.xsize (grid0.coords t) (0 : Fin 2)
    ∧ win0_0.xsize (grid0.coords t) (1 : Fin 2) = 4096
    ∧ win0_1.xsize (grid0.coords t) (1 : Fin 2) = 4096
    ∧ win0_2.xsize (grid0.coords t) (1 : Fin 2) = 1 :=
  (by decide +kernel : ∀ t : Fin grid0.N, _)

/-- Buffers that agree on the fetched part agree on every entry of a fetched row. -/
theorem row_eq (t : Fin cfg0.N) (x x' : Vec F S512x4096 .f32)
    (hcut : win0_0.cut (grid0.coords t) x = win0_0.cut (grid0.coords t) x')
    (p : Fin 512) (hp : p.val < win0_0.xsize (grid0.coords t) (0 : Fin 2)) (k : Fin 4096) :
    x (ix2 p k) = x' (ix2 p k) := by
  have e3 := (xsize_facts t).2.2.1
  let j : (win0_0.xblock (grid0.coords t)).Idx := fun a => match a with
    | ⟨0, _⟩ => ⟨p.val, hp⟩
    | ⟨1, _⟩ => ⟨k.val, lt_of_lt_of_eq k.isLt e3.symm⟩
  have h := congrFun hcut j
  have e : win0_0.xinj (grid0.coords t) j = ix2 p k :=
    funext fun a => Fin.ext (by match a with | ⟨0, _⟩ => rfl | ⟨1, _⟩ => rfl)
  show x (ix2 p k) = x' (ix2 p k)
  rw [← e]; exact h

/-- The rows written back depend only on the rows fetched, on the extended reals. -/
theorem local0 : Local0 (F := Ideal) := by
  intro t x x' hcut
  obtain ⟨e1, e2, e3, e4, e5⟩ := xsize_facts t
  constructor
  · funext j
    have hj0 : (j (0 : Fin 2)).val < win0_1.xsize (grid0.coords t) (0 : Fin 2) := (j (0 : Fin 2)).isLt
    obtain ⟨p, k, hpk⟩ : ∃ (p : Fin 512) (k : Fin 4096), win0_1.xinj (grid0.coords t) j = ix2 p k := ⟨_, _, eq_ix2 _⟩
    have hp0 : (j (0 : Fin 2)).val = p.val := congrArg Fin.val (congrFun hpk (0 : Fin 2))
    have hp : p.val < win0_0.xsize (grid0.coords t) (0 : Fin 2) := lt_of_eq_of_lt hp0.symm (lt_of_lt_of_eq hj0 e1)
    show out0_1 x (win0_1.xinj (grid0.coords t) j) = out0_1 x' (win0_1.xinj (grid0.coords t) j)
    rw [out0_1_eq, out0_1_eq, hpk, Cert.Xnor.Payloads.pay3_apply, Cert.Xnor.Payloads.pay3_apply]
    have hr : (fun k' : Fin 4096 => x (ix2 p k')) = fun k' : Fin 4096 => x' (ix2 p k') :=
      funext fun k' => row_eq t x x' hcut p hp k'
    rw [hr]
  · funext j
    have hj0 : (j (0 : Fin 2)).val < win0_2.xsize (grid0.coords t) (0 : Fin 2) := (j (0 : Fin 2)).isLt
    obtain ⟨p, u, hpu⟩ : ∃ (p : Fin 512) (u : Fin 1), win0_2.xinj (grid0.coords t) j = ix2 p u := ⟨_, _, eq_ix2 _⟩
    have hp0 : (j (0 : Fin 2)).val = p.val := congrArg Fin.val (congrFun hpu (0 : Fin 2))
    have hp : p.val < win0_0.xsize (grid0.coords t) (0 : Fin 2) := lt_of_eq_of_lt hp0.symm (lt_of_lt_of_eq hj0 e2)
    show out0_2 x (win0_2.xinj (grid0.coords t) j) = out0_2 x' (win0_2.xinj (grid0.coords t) j)
    rw [out0_2_eq, out0_2_eq, hpu, Fin.eq_zero u, Cert.Xnor.Payloads.pay2_apply, Cert.Xnor.Payloads.pay2_apply]
    have hr : (fun k' : Fin 4096 => x (ix2 p k')) = fun k' : Fin 4096 => x' (ix2 p k') :=
      funext fun k' => row_eq t x x' hcut p hp k'
    rw [hr]

end Cert.KernelIdeal.HandValue

end
-- ==== Proof.KvSign.lean ====
/-
  What the first pallas_call leaves in its two output arrays, on the extended reals: entry (o, k) of the sign matrix is the
  sign of weight row o's k-th centred entry, and entry o of the scale column is row o's mean centred magnitude. Point t
  writes back rows 512·t … of both (256 rows at the last point, 512 at the others), each a function of the same rows of
  the weight matrix; the twenty-two blocks cover the 11008 rows.
-/
import proofs.«145953_j44349832298614_2_alg».proof.Proof.KvLocal

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)

/-- A row inside a block whose rows end at the matrix's last row is a row of the matrix. -/
theorem row_lt {tv pv n : ℕ} (h : tv * 512 + n = min (tv * 512 + 512) 11008) (hp : pv < n) : tv * 512 + pv < 11008 := by omega

/-- Row `r` of the matrix lies among the rows, inside the matrix, of block `r / 512`. -/
theorem row_in {r n : ℕ} (hr : r < 11008) (h : r / 512 * 512 + n = min (r / 512 * 512 + 512) 11008) :
    r / 512 * 512 ≤ r ∧ r < r / 512 * 512 + n := by omega

theorem blk_lt {r : ℕ} (hr : r < 11008) : r / 512 < 22 := by omega

variable (V : (c : Dev nD) → (b : Ref sig .tc) → Buf (Elt Ideal) ((c : Thread nD τ).loc b))

/-- Row `o` of the weight matrix as the call finds it. -/
def wrow (c : Dev nD) (o : Fin 11008) : Fin 4096 → Ideal .f32 := fun k => V c main_arg1 (ix2 o k)

/-- The sign matrix, as one function of the weight matrix. -/
def signArr (c : Dev nD) : S11008x4096.Idx → Ideal .bf16 := fun i =>
  Cert.Xnor.sgn (Cert.Xnor.centred (wrow V c ⟨(i (0 : Fin 2)).val, (i (0 : Fin 2)).isLt⟩) ⟨(i (1 : Fin 2)).val, (i (1 : Fin 2)).isLt⟩)

/-- The scale column, as one function of the weight matrix. -/
def scaleArr (c : Dev nD) : S11008x1.Idx → Ideal .f32 := fun i =>
  Cert.Xnor.rowScale (wrow V c ⟨(i (0 : Fin 2)).val, (i (0 : Fin 2)).isLt⟩)

/-- The printed index maps and cuts, decided over the grid: the three windows move together down the rows, point `t` at
    block `t`; the rows inside the matrix end at row 11008. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ t.val * 512 + win0_0.xsize (grid0.coords t) (0 : Fin 2) = min (t.val * 512 + 512) 11008 :=
  (by decide +kernel : ∀ t : Fin grid0.N, _)

/-- The matrix row that row `p` of point `t`'s block is. -/
def rowOf (t : Fin cfg0.N) (p : Fin 512) (hp : p.val < win0_0.xsize (grid0.coords t) (0 : Fin 2)) : Fin 11008 :=
  ⟨t.val * 512 + p.val, row_lt (grid_facts t).2.2.2.2.2.2 hp⟩

/-- The input buffer's fetched rows are the weight matrix's rows of the point's block. -/
theorem xin0_row (c : Dev nD) (t : Fin cfg0.N) (p : Fin 512) (hp : p.val < win0_0.xsize (grid0.coords t) (0 : Fin 2)) :
    (fun k' : Fin 4096 => xin0 V c t (ix2 p k')) = wrow V c (rowOf t p hp) := by
  funext k'
  have e3 := (xsize_facts t).2.2.1
  have g0 := (grid_facts t).1
  have g1 := (grid_facts t).2.1
  let j : (win0_0.xblock (grid0.coords t)).Idx := fun a => match a with
    | ⟨0, _⟩ => ⟨p.val, hp⟩
    | ⟨1, _⟩ => ⟨k'.val, lt_of_lt_of_eq k'.isLt e3.symm⟩
  have e : win0_0.xinj (grid0.coords t) j = ix2 p k' :=
    funext fun a => Fin.ext (by match a with | ⟨0, _⟩ => rfl | ⟨1, _⟩ => rfl)
  unfold xin0
  rw [← e, win0_0.fill_xinj]
  unfold iblk0 wrow
  rw [View.read_apply]
  have ha : ((((cfg0.win 0).blk t).view.emb j) (0 : Fin 2) : Fin 11008) = rowOf t p hp := Fin.ext (by
    show win0_0.index t (0 : Fin 2) * 512 + 1 * p.val = t.val * 512 + p.val
    rw [g0, Nat.one_mul])
  have hb : ((((cfg0.win 0).blk t).view.emb j) (1 : Fin 2) : Fin 4096) = k' := Fin.ext (by
    show win0_0.index t (1 : Fin 2) * 4096 + 1 * k'.val = k'.val
    rw [g1, Nat.zero_mul, Nat.zero_add, Nat.one_mul])
  have h0 : (((cfg0.win 0).blk t).view.emb j : S11008x4096.Idx) = ix2 (rowOf t p hp) k' :=
    (eq_ix2 _).trans (by rw [ha, hb]; rfl)
  exact congrArg (V c main_arg1) h0

/-- What point `t` writes back of the sign buffer is block `t` of the sign matrix. -/
theorem flushed_sign (c : Dev nD) (t : Fin cfg0.N) :
    (dat0 (F := Ideal) V c).flushed 1 t = ((cfg0.win 1).blk t).view.read (Elt Ideal) (signArr V c) := by
  show (cfg0.win 1).cut (grid0.coords t) ((dat0 (F := Ideal) V c).after 1 t) = _
  rw [after0_1, out0_1_eq]
  have e1 := (xsize_facts t).1
  have g2 := (grid_facts t).2.2.1
  have g3 := (grid_facts t).2.2.2.1
  funext j
  have hj0 : (j (0 : Fin 2)).val < win0_1.xsize (grid0.coords t) (0 : Fin 2) := (j (0 : Fin 2)).isLt
  obtain ⟨p, k, hpk⟩ : ∃ (p : Fin 512) (k : Fin 4096), win0_1.xinj (grid0.coords t) j = ix2 p k := ⟨_, _, eq_ix2 _⟩
  have hp0 : (j (0 : Fin 2)).val = p.val := congrArg Fin.val (congrFun hpk (0 : Fin 2))
  have hk0 : (j (1 : Fin 2)).val = k.val := congrArg Fin.val (congrFun hpk (1 : Fin 2))
  have hp : p.val < win0_0.xsize (grid0.coords t) (0 : Fin 2) := lt_of_eq_of_lt hp0.symm (lt_of_lt_of_eq hj0 e1)
  show k0_pay3 (F := Ideal) (xin0 V c t) (win0_1.xinj (grid0.coords t) j) = signArr V c (((cfg0.win 1).blk t).view.emb j)
  rw [hpk, Cert.Xnor.Payloads.pay3_apply, xin0_row V c t p hp]
  unfold signArr
  have r0 : rowOf t p hp = ⟨((((cfg0.win 1).blk t).view.emb j) (0 : Fin 2)).val, ((((cfg0.win 1).blk t).view.emb j) (0 : Fin 2)).isLt⟩ :=
    Fin.ext (by
      show t.val * 512 + p.val = win0_1.index t (0 : Fin 2) * 512 + 1 * (j (0 : Fin 2)).val
      rw [g2, hp0, Nat.one_mul])
  have r1 : k = ⟨((((cfg0.win 1).blk t).view.emb j) (1 : Fin 2)).val, ((((cfg0.win 1).blk t).view.emb j) (1 : Fin 2)).isLt⟩ :=
    Fin.ext (by
      show k.val = win0_1.index t (1 : Fin 2) * 4096 + 1 * (j (1 : Fin 2)).val
      rw [g3, hk0, Nat.zero_mul, Nat.zero_add, Nat.one_mul])
  rw [← r0, ← r1]

/-- What point `t` writes back of the scale buffer is block `t` of the scale column. -/
theorem flushed_scale (c : Dev nD) (t : Fin cfg0.N) :
    (dat0 (F := Ideal) V c).flushed 2 t = ((cfg0.win 2).blk t).view.read (Elt Ideal) (scaleArr V c) := by
  show (cfg0.win 2).cut (grid0.coords t) ((dat0 (F := Ideal) V c).after 2 t) = _
  rw [after0_2, out0_2_eq]
  have e2 := (xsize_facts t).2.1
  have g4 := (grid_facts t).2.2.2.2.1
  funext j
  have hj0 : (j (0 : Fin 2)).val < win0_2.xsize (grid0.coords t) (0 : Fin 2) := (j (0 : Fin 2)).isLt
  obtain ⟨p, u, hpu⟩ : ∃ (p : Fin 512) (u : Fin 1), win0_2.xinj (grid0.coords t) j = ix2 p u := ⟨_, _, eq_ix2 _⟩
  have hp0 : (j (0 : Fin 2)).val = p.val := congrArg Fin.val (congrFun hpu (0 : Fin 2))
  have hp : p.val < win0_0.xsize (grid0.coords t) (0 : Fin 2) := lt_of_eq_of_lt hp0.symm (lt_of_lt_of_eq hj0 e2)
  show k0_pay2 (F := Ideal) (xin0 V c t) (win0_2.xinj (grid0.coords t) j) = scaleArr V c (((cfg0.win 2).blk t).view.emb j)
  rw [hpu, Fin.eq_zero u, Cert.Xnor.Payloads.pay2_apply, xin0_row V c t p hp]
  unfold scaleArr
  have r0 : rowOf t p hp = ⟨((((cfg0.win 2).blk t).view.emb j) (0 : Fin 2)).val, ((((cfg0.win 2).blk t).view.emb j) (0 : Fin 2)).isLt⟩ :=
    Fin.ext (by
      show t.val * 512 + p.val = win0_2.index t (0 : Fin 2) * 512 + 1 * (j (0 : Fin 2)).val
      rw [g4, hp0, Nat.one_mul])
  rw [← r0]

/-- An index of the sign matrix is in point `t`'s block iff its row is among the block's rows inside the matrix. -/
theorem mem_blk_sign (t : Fin cfg0.N) (i : S11008x4096.Idx) :
    i ∈ ((cfg0.win 1).blk t).view.set ↔ ∀ a : Fin 2, win0_1.index t a * S512x4096.size a ≤ (i a).val
      ∧ (i a).val < win0_1.index t a * S512x4096.size a + win0_1.xsize (grid0.coords t) a := by
  show i ∈ ((View.whole main_v0_0).slice (win0_1.rect t)).set ↔ _
  rw [View.set_slice_whole, Rect.mem_set_unit]
  exact Iff.rfl

theorem mem_blk_scale (t : Fin cfg0.N) (i : S11008x1.Idx) :
    i ∈ ((cfg0.win 2).blk t).view.set ↔ ∀ a : Fin 2, win0_2.index t a * S512x1.size a ≤ (i a).val
      ∧ (i a).val < win0_2.index t a * S512x1.size a + win0_2.xsize (grid0.coords t) a := by
  show i ∈ ((View.whole main_v0_1).slice (win0_2.rect t)).set ↔ _
  rw [View.set_slice_whole, Rect.mem_set_unit]
  exact Iff.rfl

/-- The grid point whose block holds matrix row `r`. -/
def pointOf (r : ℕ) (hr : r < 11008) : Fin cfg0.N := ⟨r / 512, by show r / 512 < grid0.N; rw [N_0]; exact blk_lt hr⟩

/-- The sign matrix after the call. -/
theorem final_sign (c : Dev nD) : (dat0 (F := Ideal) V c).arrAt 1 cfg0.N = signArr V c := by
  refine (dat0 (F := Ideal) V c).arrAt_eq_of_cover 1 (signArr V c) (fun t _ => flushed_sign V c t) fun i => ?_
  have hi0 : (i (0 : Fin 2)).val < 11008 := (i (0 : Fin 2)).isLt
  have hi1 : (i (1 : Fin 2)).val < 4096 := (i (1 : Fin 2)).isLt
  have e1 := (xsize_facts (pointOf _ hi0)).1
  have e4 := (xsize_facts (pointOf _ hi0)).2.2.2.1
  have g2 := (grid_facts (pointOf _ hi0)).2.2.1
  have g3 := (grid_facts (pointOf _ hi0)).2.2.2.1
  have g6 := (grid_facts (pointOf _ hi0)).2.2.2.2.2.2
  have key := row_in hi0 (n := win0_0.xsize (grid0.coords (pointOf _ hi0)) (0 : Fin 2)) g6
  refine ⟨pointOf _ hi0, flush0_1 _, ?_⟩
  rw [mem_blk_sign]
  intro a
  match a with
  | ⟨0, _⟩ =>
    show win0_1.index (pointOf _ hi0) (0 : Fin 2) * 512 ≤ (i (0 : Fin 2)).val ∧ (i (0 : Fin 2)).val < win0_1.index (pointOf _ hi0) (0 : Fin 2) * 512 + win0_1.xsize (grid0.coords (pointOf _ hi0)) (0 : Fin 2)
    rw [g2, e1]; exact key
  | ⟨1, _⟩ =>
    show win0_1.index (pointOf _ hi0) (1 : Fin 2) * 4096 ≤ (i (1 : Fin 2)).val ∧ (i (1 : Fin 2)).val < win0_1.index (pointOf _ hi0) (1 : Fin 2) * 4096 + win0_1.xsize (grid0.coords (pointOf _ hi0)) (1 : Fin 2)
    rw [g3, e4, Nat.zero_mul, Nat.zero_add]; exact ⟨Nat.zero_le _, hi1⟩

/-- The scale column after the call. -/
theorem final_scale (c : Dev nD) : (dat0 (F := Ideal) V c).arrAt 2 cfg0.N = scaleArr V c := by
  refine (dat0 (F := Ideal) V c).arrAt_eq_of_cover 2 (scaleArr V c) (fun t _ => flushed_scale V c t) fun i => ?_
  have hi0 : (i (0 : Fin 2)).val < 11008 := (i (0 : Fin 2)).isLt
  have hi1 : (i (1 : Fin 2)).val < 1 := (i (1 : Fin 2)).isLt
  have e2 := (xsize_facts (pointOf _ hi0)).2.1
  have e5 := (xsize_facts (pointOf _ hi0)).2.2.2.2
  have g4 := (grid_facts (pointOf _ hi0)).2.2.2.2.1
  have g5 := (grid_facts (pointOf _ hi0)).2.2.2.2.2.1
  have g6 := (grid_facts (pointOf _ hi0)).2.2.2.2.2.2
  have key := row_in hi0 (n := win0_0.xsize (grid0.coords (pointOf _ hi0)) (0 : Fin 2)) g6
  refine ⟨pointOf _ hi0, flush0_2 _, ?_⟩
  rw [mem_blk_scale]
  intro a
  match a with
  | ⟨0, _⟩ =>
    show win0_2.index (pointOf _ hi0) (0 : Fin 2) * 512 ≤ (i (0 : Fin 2)).val ∧ (i (0 : Fin 2)).val < win0_2.index (pointOf _ hi0) (0 : Fin 2) * 512 + win0_2.xsize (grid0.coords (pointOf _ hi0)) (0 : Fin 2)
    rw [g4, e2]; exact key
  | ⟨1, _⟩ =>
    show win0_2.index (pointOf _ hi0) (1 : Fin 2) * 1 ≤ (i (1 : Fin 2)).val ∧ (i (1 : Fin 2)).val < win0_2.index (pointOf _ hi0) (1 : Fin 2) * 1 + win0_2.xsize (grid0.coords (pointOf _ hi0)) (1 : Fin 2)
    rw [g5, e5, Nat.zero_mul, Nat.zero_add]; exact ⟨Nat.zero_le _, hi1⟩

/-- Read at an entry: the sign matrix and the scale column after the call. -/
theorem final_sign_apply (c : Dev nD) (o : Fin 11008) (k : Fin 4096) :
    (dat0 (F := Ideal) V c).arrAt 1 cfg0.N (ix2 o k) = Cert.Xnor.sgn (Cert.Xnor.centred (wrow V c o) k) := by
  rw [final_sign]; rfl

theorem final_scale_apply (c : Dev nD) (o : Fin 11008) :
    (dat0 (F := Ideal) V c).arrAt 2 cfg0.N (ix2 o (0 : Fin 1)) = Cert.Xnor.rowScale (wrow V c o) := by
  rw [final_scale]; rfl

end Cert.KernelIdeal.HandValue

end
-- ==== Proof.KvCast.lean ====
/-
  The second pallas_call, from blocks to the array. Sixteen grid points each copy one block of 512 rows of the
  activations (8192 rows of 4096 entries) into the same block of the narrower-format array; both windows use the index map
  i ↦ (i, 0). On the extended reals a change of float format is the identity, so what each point writes back is its block of
  the activations themselves; the sixteen blocks cover the 8192 rows (row r lies in block r / 512), so the array after
  the call is the activations as the call finds them. Stated at a parameter `V`, the buffers' contents when the call is
  entered.
-/
import proofs.«145953_j44349832298614_2_alg».proof.Proof.KiCast
import proofs.«145953_j44349832298614_2_alg».proof.Proof.Payloads
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle, as the constant function. -/
theorem zero_offsets : (![0, 0] : Fin 2 → Nat) = fun _ => 0 := funext fun a => by fin_cases a <;> rfl

/-- The two windows' index maps agree at every grid point, and the block index stays in its range. -/
theorem cast_index_facts : ∀ t : Fin cfg1.N, win1_0.index t (0 : Fin 2) = win1_1.index t (0 : Fin 2)
    ∧ win1_0.index t (1 : Fin 2) = win1_1.index t (1 : Fin 2)
    ∧ win1_1.index t (0 : Fin 2) ≤ 15 ∧ win1_1.index t (1 : Fin 2) = 0 :=
  (by decide +kernel : ∀ t : Fin grid1.N, _)

/-- Every one of the sixteen row blocks is some grid point's. -/
theorem cast_index_onto : ∀ q0 : Fin 16, ∃ t : Fin cfg1.N, win1_1.index t = ![q0.val, 0] :=
  (by decide +kernel : ∀ q0 : Fin 16, ∃ t : Fin grid1.N, win1_1.index t = ![q0.val, 0])

/-- The array the cast ends holding: the activations as the call finds them. -/
def castArr (c : Dev nD) : S8192x4096.Idx → Elt Ideal .bf16 := fun i => V c main_v1 i

/-- What point `t` writes back is block `t` of the activations. -/
theorem cast_flushed_eq (c : Dev nD) (t : Fin cfg1.N) :
    (dat1 (F := Ideal) V c).flushed 1 t = ((cfg1.win 1).blk t).view.read (Elt Ideal) (castArr V c) := by
  show (cfg1.win 1).cut (grid1.coords t) ((dat1 (F := Ideal) V c).after 1 t) = _
  rw [after1_1]
  unfold out1_1
  rw [View.canon_unit_zero zero_offsets]
  simp only [View.ld_unit_zero (S := S512x4096) zero_offsets]
  obtain ⟨e0, e1, e2, e3⟩ := cast_index_facts t
  refine funext fun (j : S512x4096.Idx) => ?_
  show k1_pay1 (F := Ideal) (iblk1 V c 0 t) j = _
  refine (Cert.Xnor.Payloads.cast_apply _ _).trans ?_
  show (V c main_v1 (((cfg1.win 0).blk t).view.emb j) : EReal) = (V c main_v1 (((cfg1.win 1).blk t).view.emb j) : EReal)
  refine congrArg (V c main_v1) (funext fun a => Fin.ext ?_)
  match a with
  | ⟨0, _⟩ => show win1_0.index t (0 : Fin 2) * 512 + 1 * (j 0).val = win1_1.index t (0 : Fin 2) * 512 + 1 * (j 0).val; omega
  | ⟨1, _⟩ => show win1_0.index t (1 : Fin 2) * 4096 + 1 * (j 1).val = win1_1.index t (1 : Fin 2) * 4096 + 1 * (j 1).val; omega

/-- An index of the array is in point `t`'s block iff each coordinate is in the block's range on its axis. -/
theorem cast_mem_blk (t : Fin cfg1.N) (i : S8192x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v2).slice (win1_1.rect t)).set ↔ _
  rw [View.set_slice_whole, Rect.mem_set_unit]
  exact Iff.rfl

/-- The sixteen blocks of 512 rows cover the array: row `r` lies in block `r / 512`. -/
theorem cast_cover (i : S8192x4096.Idx) :
    ∃ t : Fin cfg1.N, (cfg1.win 1).flush t = true ∧ i ∈ ((cfg1.win 1).blk t).view.set := by
  have hi0 : (i 0).val < 8192 := (i 0).isLt
  have hi1 : (i 1).val < 4096 := (i 1).isLt
  obtain ⟨t, ht⟩ := cast_index_onto ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [cast_mem_blk]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- The array after the call: the activations as the call finds them, unchanged on the extended reals. -/
theorem final1 (c : Dev nD) : (dat1 (F := Ideal) V c).arrAt 1 cfg1.N = fun i => (V c main_v1 i) :=
  (dat1 (F := Ideal) V c).arrAt_eq_of_cover 1 (castArr V c) (fun t _ => cast_flushed_eq V c t) cast_cover

end Cert.KernelIdeal.HandValue

end
-- ==== Proof.KvProduct.lean ====
/-
  The third pallas_call, from blocks to the array. On the 4 × 43 grid, point (i, j) writes the 2048 × 256 block (i, j) of the
  result from block i (2048 rows) of the converted activations, block j (256 rows) of the sign matrix and blocks j
  (256 entries) of the scale row and of the bias row. Entry (p, q) of what it writes is the inner product over the 4096 shared
  columns of row p of the activations' block with row q of the signs' block, times entry q of the scales' block, plus entry q
  of the biases' block. A block's entry sits in its array at block index × block size + its coordinate, so this is entry
  (2048 i + p, 256 j + q) of ONE function of the four arrays: row r of the activations against row o of the signs, times
  scale o, plus bias o. The 4 × 43 blocks cover the 8192 × 11008 result (entry (r, o) lies in block (r / 2048, o / 256)), so
  the array after the call is that function. Stated at a parameter `V`, the buffers' contents when the call is entered.
-/
import proofs.«145953_j44349832298614_2_alg».proof.Proof.KiProduct
import proofs.«145953_j44349832298614_2_alg».proof.Proof.Payloads
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle, as the constant function. -/
theorem zero_offsets2 : (![0, 0] : Fin 2 → Nat) = fun _ => 0 := funext fun a => by fin_cases a <;> rfl

/-- The printed index maps, decided over the 4 × 43 grid: the activations' block moves with the output's row block, the
    signs', scales' and biases' blocks with the output's column block, and the output's block indices stay in range. -/
theorem prod_index_facts : ∀ t : Fin cfg2.N, win2_0.index t (0 : Fin 2) = win2_4.index t (0 : Fin 2)
    ∧ win2_0.index t (1 : Fin 2) = 0
    ∧ win2_1.index t (0 : Fin 2) = win2_4.index t (1 : Fin 2)
    ∧ win2_1.index t (1 : Fin 2) = 0
    ∧ win2_2.index t (0 : Fin 2) = 0
    ∧ win2_2.index t (1 : Fin 2) = win2_4.index t (1 : Fin 2)
    ∧ win2_3.index t (0 : Fin 2) = 0
    ∧ win2_3.index t (1 : Fin 2) = win2_4.index t (1 : Fin 2)
    ∧ win2_4.index t (0 : Fin 2) ≤ 3 ∧ win2_4.index t (1 : Fin 2) ≤ 42 :=
  (by decide +kernel : ∀ t : Fin grid2.N, _)

/-- Every block of the 4 × 43 tiling of the output is some grid point's. -/
theorem prod_index_onto : ∀ (q0 : Fin 4) (q1 : Fin 43), ∃ t : Fin cfg2.N, win2_4.index t = ![q0.val, q1.val] :=
  (by decide +kernel : ∀ (q0 : Fin 4) (q1 : Fin 43), ∃ t : Fin grid2.N, win2_4.index t = ![q0.val, q1.val])

/-- The inner product of two rows of 4096 extended reals, times a scale, plus a bias. -/
def affineDot (x s : Fin 4096 → EReal) (a b : EReal) : EReal := (∑ k : Fin 4096, x k * s k) * a + b

theorem affineDot_eq (x s : Fin 4096 → EReal) (a b : EReal) : affineDot x s a b = (∑ k : Fin 4096, x k * s k) * a + b := rfl

/-- Entry `(r, o)` of the result: row `r` of the activations against row `o` of the signs over the 4096 shared
    columns, times column `o`'s scale, plus column `o`'s bias. -/
def prodEntry (c : Dev nD) (r : Fin 8192) (o : Fin 11008) : EReal :=
  affineDot (fun k => V c main_v2 (ix2 r k)) (fun k => V c main_v0_0 (ix2 o k)) (V c main_v3 (ix2 (0 : Fin 1) o))
    (V c main_v4 (ix2 (0 : Fin 1) o))

/-- The array the product ends holding, entry by entry. -/
def prodArr (c : Dev nD) : S8192x11008.Idx → Elt Ideal .f32 := fun i => prodEntry V c (i 0) (i 1)

/-- An entry of the activations' block at point `t` is the array's entry in the output block's rows. -/
theorem blk0_apply (c : Dev nD) (t : Fin cfg2.N) (p : Fin 2048) (k : Fin 4096) (r : Fin 8192)
    (hr : r.val = win2_4.index t (0 : Fin 2) * 2048 + p.val) :
    (iblk2 (F := Ideal) V c 0 t (ix2 p k) : EReal) = V c main_v2 (ix2 r k) := by
  obtain ⟨e0, e1, -⟩ := prod_index_facts t
  show (V c main_v2 (((cfg2.win 0).blk t).view.emb (ix2 p k)) : EReal) = V c main_v2 (ix2 r k)
  refine congrArg (V c main_v2) (funext fun a => Fin.ext ?_)
  match a with
  | ⟨0, _⟩ => show win2_0.index t (0 : Fin 2) * 2048 + 1 * p.val = r.val; omega
  | ⟨1, _⟩ => show win2_0.index t (1 : Fin 2) * 4096 + 1 * k.val = k.val; omega

/-- An entry of the signs' block at point `t` is the array's entry in the output block's columns' rows. -/
theorem blk1_apply (c : Dev nD) (t : Fin cfg2.N) (q : Fin 256) (k : Fin 4096) (o : Fin 11008)
    (ho : o.val = win2_4.index t (1 : Fin 2) * 256 + q.val) :
    (iblk2 (F := Ideal) V c 1 t (ix2 q k) : EReal) = V c main_v0_0 (ix2 o k) := by
  obtain ⟨-, -, e2, e3, -⟩ := prod_index_facts t
  show (V c main_v0_0 (((cfg2.win 1).blk t).view.emb (ix2 q k)) : EReal) = V c main_v0_0 (ix2 o k)
  refine congrArg (V c main_v0_0) (funext fun a => Fin.ext ?_)
  match a with
  | ⟨0, _⟩ => show win2_1.index t (0 : Fin 2) * 256 + 1 * q.val = o.val; omega
  | ⟨1, _⟩ => show win2_1.index t (1 : Fin 2) * 4096 + 1 * k.val = k.val; omega

/-- An entry of the scales' block at point `t` is the scale row's entry in the output block's columns. -/
theorem blk2_apply (c : Dev nD) (t : Fin cfg2.N) (q : Fin 256) (o : Fin 11008)
    (ho : o.val = win2_4.index t (1 : Fin 2) * 256 + q.val) :
    (iblk2 (F := Ideal) V c 2 t (ix2 (0 : Fin 1) q) : EReal) = V c main_v3 (ix2 (0 : Fin 1) o) := by
  obtain ⟨-, -, -, -, e4, e5, -⟩ := prod_index_facts t
  show (V c main_v3 (((cfg2.win 2).blk t).view.emb (ix2 (0 : Fin 1) q)) : EReal) = V c main_v3 (ix2 (0 : Fin 1) o)
  refine congrArg (V c main_v3) (funext fun a => Fin.ext ?_)
  match a with
  | ⟨0, _⟩ => show win2_2.index t (0 : Fin 2) * 1 + 1 * 0 = 0; omega
  | ⟨1, _⟩ => show win2_2.index t (1 : Fin 2) * 256 + 1 * q.val = o.val; omega

/-- An entry of the biases' block at point `t` is the bias row's entry in the output block's columns. -/
theorem blk3_apply (c : Dev nD) (t : Fin cfg2.N) (q : Fin 256) (o : Fin 11008)
    (ho : o.val = win2_4.index t (1 : Fin 2) * 256 + q.val) :
    (iblk2 (F := Ideal) V c 3 t (ix2 (0 : Fin 1) q) : EReal) = V c main_v4 (ix2 (0 : Fin 1) o) := by
  obtain ⟨-, -, -, -, -, -, e6, e7, -⟩ := prod_index_facts t
  show (V c main_v4 (((cfg2.win 3).blk t).view.emb (ix2 (0 : Fin 1) q)) : EReal) = V c main_v4 (ix2 (0 : Fin 1) o)
  refine congrArg (V c main_v4) (funext fun a => Fin.ext ?_)
  match a with
  | ⟨0, _⟩ => show win2_3.index t (0 : Fin 2) * 1 + 1 * 0 = 0; omega
  | ⟨1, _⟩ => show win2_3.index t (1 : Fin 2) * 256 + 1 * q.val = o.val; omega

/-- What point `t` writes back is block `t` of the product array. -/
theorem prod_flushed_eq (c : Dev nD) (t : Fin cfg2.N) :
    (dat2 (F := Ideal) V c).flushed 4 t = ((cfg2.win 4).blk t).view.read (Elt Ideal) (prodArr V c) := by
  show (cfg2.win 4).cut (grid2.coords t) ((dat2 (F := Ideal) V c).after 4 t) = _
  rw [after2_4]
  unfold out2_4
  rw [View.canon_unit_zero zero_offsets2]
  simp only [View.ld_unit_zero (S := S2048x4096) zero_offsets2, View.ld_unit_zero (S := S256x4096) zero_offsets2,
    View.ld_unit_zero (S := S1x256) zero_offsets2]
  obtain ⟨-, -, -, -, -, -, -, -, e8, e9⟩ := prod_index_facts t
  refine funext fun (j : S2048x256.Idx) => ?_
  obtain ⟨p, q, rfl⟩ : ∃ (p : Fin 2048) (q : Fin 256), j = ix2 p q := ⟨j 0, j 1, eq_ix2 j⟩
  obtain ⟨r, hr⟩ : ∃ r : Fin 8192, r.val = win2_4.index t (0 : Fin 2) * 2048 + p.val :=
    ⟨⟨win2_4.index t (0 : Fin 2) * 2048 + p.val, by have := p.isLt; omega⟩, rfl⟩
  obtain ⟨o, ho⟩ : ∃ o : Fin 11008, o.val = win2_4.index t (1 : Fin 2) * 256 + q.val :=
    ⟨⟨win2_4.index t (1 : Fin 2) * 256 + q.val, by have := q.isLt; omega⟩, rfl⟩
  show k2_pay1 (F := Ideal) (iblk2 V c 0 t) (iblk2 V c 1 t) (iblk2 V c 2 t) (iblk2 V c 3 t) (ix2 p q) = _
  refine (Cert.Xnor.Payloads.mm_apply _ _ _ _ p q).trans ?_
  have hemb : ((cfg2.win 4).blk t).view.emb (ix2 p q) = ix2 r o := funext fun a => Fin.ext (by
    match a with
    | ⟨0, _⟩ => show win2_4.index t (0 : Fin 2) * 2048 + 1 * p.val = r.val; omega
    | ⟨1, _⟩ => show win2_4.index t (1 : Fin 2) * 256 + 1 * q.val = o.val; omega)
  show _ = prodArr V c (((cfg2.win 4).blk t).view.emb (ix2 p q))
  rw [hemb]
  show _ = prodEntry V c r o
  unfold prodEntry affineDot
  exact congrArg₂ (fun a b : EReal => a + b)
    (congrArg₂ (fun a b : EReal => a * b)
      (Finset.sum_congr rfl fun k _ => congrArg₂ (fun a b : EReal => a * b) (blk0_apply V c t p k r hr) (blk1_apply V c t q k o ho))
      (blk2_apply V c t q o ho))
    (blk3_apply V c t q o ho)

/-- An index of the array is in point `t`'s block iff each coordinate is in the block's range on its axis. -/
theorem prod_mem_blk (t : Fin cfg2.N) (i : S8192x11008.Idx) :
    i ∈ ((cfg2.win 4).blk t).view.set ↔ ∀ a : Fin 2, win2_4.index t a * S2048x256.size a ≤ (i a).val ∧ (i a).val < win2_4.index t a * S2048x256.size a + S2048x256.size a := by
  show i ∈ ((View.whole main_v5).slice (win2_4.rect t)).set ↔ _
  rw [View.set_slice_whole, Rect.mem_set_unit]
  exact Iff.rfl

/-- The 4 × 43 blocks of 2048 × 256 entries cover the array: entry `(r, o)` lies in block `(r / 2048, o / 256)`. -/
theorem prod_cover (i : S8192x11008.Idx) :
    ∃ t : Fin cfg2.N, (cfg2.win 4).flush t = true ∧ i ∈ ((cfg2.win 4).blk t).view.set := by
  have hi0 : (i 0).val < 8192 := (i 0).isLt
  have hi1 : (i 1).val < 11008 := (i 1).isLt
  obtain ⟨t, ht⟩ := prod_index_onto ⟨(i 0).val / 2048, by omega⟩ ⟨(i 1).val / 256, by omega⟩
  have q0 : win2_4.index t (0 : Fin 2) = (i 0).val / 2048 := congrFun ht 0
  have q1 : win2_4.index t (1 : Fin 2) = (i 1).val / 256 := congrFun ht 1
  refine ⟨t, flush2_4 t, ?_⟩
  rw [prod_mem_blk]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 256 ≤ (i 1).val ∧ (i 1).val < win2_4.index t (1 : Fin 2) * 256 + 256; omega

/-- The array after the call, as one function of the arrays the call finds. -/
theorem final2_arr (c : Dev nD) : (dat2 (F := Ideal) V c).arrAt 4 cfg2.N = prodArr V c :=
  (dat2 (F := Ideal) V c).arrAt_eq_of_cover 4 (prodArr V c) (fun t _ => prod_flushed_eq V c t) prod_cover

/-- Entry `(p, o)` of the array after the call: row `p` of the activations against row `o` of the signs, times column
    `o`'s scale, plus column `o`'s bias. -/
theorem final2 (c : Dev nD) (p : Fin 8192) (o : Fin 11008) :
    (dat2 (F := Ideal) V c).arrAt 4 cfg2.N (ix2 p o)
      = affineDot (fun k => V c main_v2 (ix2 p k)) (fun k => V c main_v0_0 (ix2 o k)) (V c main_v3 (ix2 (0 : Fin 1) o))
          (V c main_v4 (ix2 (0 : Fin 1) o)) :=
  congrFun (final2_arr V c) (ix2 p o)

/-- The same entry with the four arrays the call finds named as functions into the extended reals. -/
theorem final2_of (c : Dev nD) (X : S8192x4096.Idx → EReal) (S : S11008x4096.Idx → EReal) (A B : S1x11008.Idx → EReal)
    (hX : V c main_v2 = X) (hS : V c main_v0_0 = S) (hA : V c main_v3 = A) (hB : V c main_v4 = B)
    (p : Fin 8192) (o : Fin 11008) :
    (dat2 (F := Ideal) V c).arrAt 4 cfg2.N (ix2 p o)
      = (∑ k : Fin 4096, X (ix2 p k) * S (ix2 o k)) * A (ix2 (0 : Fin 1) o) + B (ix2 (0 : Fin 1) o) := by
  subst hX hS hA hB
  exact final2 V c p o

end Cert.KernelIdeal.HandValue

end
-- ==== Proof.KvHost.lean ====
/-
  The four reshapes of the program read at an entry.

  Between the three calls the program only re-views arrays in row-major order: the activations `[4, 2048, 4096]` with
  batch and sequence merged into 8192 rows (row `bb·2048 + s`), the scales' column `[11008, 1]` and the bias `[11008]`
  each as one row `[1, 11008]`, and at the end the result's 8192 rows split back into `[4, 2048]`. Each is read here at one
  entry as the entry of the contents the stretch started from; those contents are never opened.
-/
import proofs.«145953_j44349832298614_2_alg».proof.Proof.KiRun
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen Cert.KernelIdeal.Hand Idealize.ShloMosaic Idealize.ShloMosaic.ValueIdx Idealize.ShloMosaic.TcCoe

/-! ## A reshape read at an entry -/

section Layout
variable {α : Type}

/-- A `[4, 2048, c]` array with its two leading axes merged reads, at row `r = bb·2048 + s`, the entry `(bb, s, k)`. -/
theorem merge_rows_apply {c : ℕ} (x : (⟨3, ![4, 2048, c]⟩ : Shape).Idx → α)
    (h : (⟨3, ![4, 2048, c]⟩ : Shape).ShapeCasts ⟨2, ![8192, c]⟩) (bb : Fin 4) (s : Fin 2048) (k : Fin c) (r : Fin 8192)
    (hr : r.val = bb.val * 2048 + s.val) : shapeCast ⟨2, ![8192, c]⟩ x h (ix2 r k) = x (ix3 bb s k) :=
  shapeCast_apply x h _ _ (by
    rw [Shape.rowMajor_val_three, Shape.rowMajor_val_two]
    show (bb.val * 2048 + s.val) * c + k.val = r.val * c + k.val
    rw [hr])

/-- An `[8192, c]` array with its rows split into 4 groups of 2048 reads, at `(bb, s, k)`, row `r = bb·2048 + s`. -/
theorem split_rows_apply {c : ℕ} (x : (⟨2, ![8192, c]⟩ : Shape).Idx → α)
    (h : (⟨2, ![8192, c]⟩ : Shape).ShapeCasts ⟨3, ![4, 2048, c]⟩) (bb : Fin 4) (s : Fin 2048) (k : Fin c) (r : Fin 8192)
    (hr : r.val = bb.val * 2048 + s.val) : shapeCast ⟨3, ![4, 2048, c]⟩ x h (ix3 bb s k) = x (ix2 r k) :=
  shapeCast_apply x h _ _ (by
    rw [Shape.rowMajor_val_three, Shape.rowMajor_val_two]
    show r.val * c + k.val = (bb.val * 2048 + s.val) * c + k.val
    rw [hr])

/-- An `[a, 1]` column viewed as a `[1, a]` row reads, at `(u, i)`, the column's entry `i`. -/
theorem shapeCast_a1_1a_apply {a : ℕ} (x : (⟨2, ![a, 1]⟩ : Shape).Idx → α)
    (h : (⟨2, ![a, 1]⟩ : Shape).ShapeCasts ⟨2, ![1, a]⟩) (u u' : Fin 1) (i : Fin a) :
    shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.mul_one, Nat.add_zero, Nat.zero_mul, Nat.zero_add])

end Layout

/-! ## The four reshapes as functions of the contents they start from -/

/-- The activations with batch and sequence merged. -/
theorem after1 (Wv : Valuation τ sig (Elt Ideal)) :
    (StableHlo.after (hostOps1 (F := Ideal)) Wv (Proc.devRef .tc main_v1) : S8192x4096.Idx → EReal)
      = shapeCast S8192x4096 (Wv (Proc.devRef .tc main_arg0) : S4x2048x4096.Idx → EReal) shapeCasts_S4x2048x4096_S8192x4096 := by
  dsimp only [hostOps1]
  after_results
  rfl

/-- The scales' column as a row. -/
theorem after2_scale (Wv : Valuation τ sig (Elt Ideal)) :
    (StableHlo.after (hostOps2 (F := Ideal)) Wv (Proc.devRef .tc main_v3) : S1x11008.Idx → EReal)
      = shapeCast S1x11008 (Wv (Proc.devRef .tc main_v0_1) : S11008x1.Idx → EReal) shapeCasts_S11008x1_S1x11008 := by
  dsimp only [hostOps2]
  after_results
  rfl

/-- The bias as a row. -/
theorem after2_bias (Wv : Valuation τ sig (Elt Ideal)) :
    (StableHlo.after (hostOps2 (F := Ideal)) Wv (Proc.devRef .tc main_v4) : S1x11008.Idx → EReal)
      = shapeCast S1x11008 (Wv (Proc.devRef .tc main_arg2) : S11008.Idx → EReal) shapeCasts_S11008_S1x11008 := by
  dsimp only [hostOps2]
  after_results
  rfl

/-- The result with its rows split back into batch and sequence. -/
theorem after3 (Wv : Valuation τ sig (Elt Ideal)) :
    (StableHlo.after (hostOps3 (F := Ideal)) Wv (Proc.devRef .tc main_v6) : S4x2048x11008.Idx → EReal)
      = shapeCast S4x2048x11008 (Wv (Proc.devRef .tc main_v5) : S8192x11008.Idx → EReal) shapeCasts_S8192x11008_S4x2048x11008 := by
  dsimp only [hostOps3]
  after_results
  rfl

/-! ## The reshapes at an entry, over any starting contents -/

theorem reshape1_apply (Wv : Valuation τ sig (Elt Ideal)) (bb : Fin 4) (s : Fin 2048) (k : Fin 4096) :
    StableHlo.after (hostOps1 (F := Ideal)) Wv (Proc.devRef .tc main_v1) (ix2 (⟨bb.val * 2048 + s.val, by omega⟩ : Fin 8192) k)
      = Wv (Proc.devRef .tc main_arg0) (ix3 bb s k) :=
  (congrFun (after1 Wv) _).trans (merge_rows_apply _ _ bb s k _ rfl)

theorem reshape2_scale_apply (Wv : Valuation τ sig (Elt Ideal)) (o : Fin 11008) :
    StableHlo.after (hostOps2 (F := Ideal)) Wv (Proc.devRef .tc main_v3) (ix2 (0 : Fin 1) o)
      = Wv (Proc.devRef .tc main_v0_1) (ix2 o (0 : Fin 1)) :=
  (congrFun (after2_scale Wv) _).trans (shapeCast_a1_1a_apply _ _ 0 0 o)

theorem reshape2_bias_apply (Wv : Valuation τ sig (Elt Ideal)) (o : Fin 11008) :
    StableHlo.after (hostOps2 (F := Ideal)) Wv (Proc.devRef .tc main_v4) (ix2 (0 : Fin 1) o)
      = Wv (Proc.devRef .tc main_arg2) (ix1 o) :=
  (congrFun (after2_bias Wv) _).trans (shapeCast_a_1a_apply _ _ 0 o)

theorem reshape3_apply (Wv : Valuation τ sig (Elt Ideal)) (bb : Fin 4) (s : Fin 2048) (o : Fin 11008) :
    StableHlo.after (hostOps3 (F := Ideal)) Wv (Proc.devRef .tc main_v6) (ix3 bb s o)
      = Wv (Proc.devRef .tc main_v5) (ix2 (⟨bb.val * 2048 + s.val, by omega⟩ : Fin 8192) o) :=
  (congrFun (after3 Wv) _).trans (split_rows_apply _ _ bb s o _ rfl)

/-! ## The reshapes at an entry, between the boundaries of the run -/

section Run
variable (m : (ℓ : Loc nD τ sig) → Buf (Elt Ideal) ℓ) (ρ : Dev nD → PrngReg) (c : Dev nD)

/-- The merged activations at row `bb·2048 + s` are the activations at `(bb, s)`. -/
theorem v1_apply (bb : Fin 4) (s : Fin 2048) (k : Fin 4096) :
    W2 (F := Ideal) m ρ c (Proc.devRef .tc main_v1) (ix2 (⟨bb.val * 2048 + s.val, by omega⟩ : Fin 8192) k)
      = W1 (F := Ideal) m ρ c (Proc.devRef .tc main_arg0) (ix3 bb s k) :=
  reshape1_apply (W1 (F := Ideal) m ρ c) bb s k

/-- The scales' row at `o` is the scales' column at `o`. -/
theorem v3_apply (o : Fin 11008) :
    W4 (F := Ideal) m ρ c (Proc.devRef .tc main_v3) (ix2 (0 : Fin 1) o)
      = W3 (F := Ideal) m ρ c (Proc.devRef .tc main_v0_1) (ix2 o (0 : Fin 1)) :=
  reshape2_scale_apply (W3 (F := Ideal) m ρ c) o

/-- The bias's row at `o` is the bias at `o`. -/
theorem v4_apply (o : Fin 11008) :
    W4 (F := Ideal) m ρ c (Proc.devRef .tc main_v4) (ix2 (0 : Fin 1) o)
      = W3 (F := Ideal) m ρ c (Proc.devRef .tc main_arg2) (ix1 o) :=
  reshape2_bias_apply (W3 (F := Ideal) m ρ c) o

/-- The result at `(bb, s)` is the product's row `bb·2048 + s`. -/
theorem v6_apply (bb : Fin 4) (s : Fin 2048) (o : Fin 11008) :
    W6 (F := Ideal) m ρ c (Proc.devRef .tc main_v6) (ix3 bb s o)
      = W5 (F := Ideal) m ρ c (Proc.devRef .tc main_v5) (ix2 (⟨bb.val * 2048 + s.val, by omega⟩ : Fin 8192) o) :=
  reshape3_apply (W5 (F := Ideal) m ρ c) bb s o

end Run

end Cert.KernelIdeal.HandValue

end
-- ==== Proof.KvFinal.lean ====
/-
  The kernel program's result at one entry, on the extended reals. Entry (bb, s, o) of the result is entry (bb·2048 + s, o)
  of the product array; that entry is the sum over the 4096 columns of the converted activations' row bb·2048 + s times the
  sign matrix's row o, times entry o of the scale row, plus entry o of the bias row. The converted activations are the
  activations (a change of format is the identity), reshaped; the sign matrix and the scale come from the first call; the
  scale row and the bias row are reshapes of the scale column and of the bias. Put together, the entry is the specification's.
-/
import proofs.«145953_j44349832298614_2_alg».proof.Proof.KvChain
import proofs.«145953_j44349832298614_2_alg».proof.Proof.KvSign
import proofs.«145953_j44349832298614_2_alg».proof.Proof.KvCast
import proofs.«145953_j44349832298614_2_alg».proof.Proof.KvProduct
import proofs.«145953_j44349832298614_2_alg».proof.Proof.KvHost

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe

variable (m : (ℓ : Loc nD τ sig) → Buf (Elt Ideal) ℓ) (ρ : Dev nD → PrngReg) (c : Dev nD)

/-- Row bb·2048 + s of the converted activations is row (bb, s) of the activations as launched. -/
theorem conv_apply (bb : Fin 4) (s : Fin 2048) (k : Fin 4096) :
    W4 (F := Ideal) m ρ c (Proc.devRef .tc main_v2) (ix2 (⟨bb.val * 2048 + s.val, by omega⟩ : Fin 8192) k)
      = m ((c : Thread nD τ).loc main_arg0) (ix3 bb s k) := by
  rw [conv_eq, final1 (V2r m ρ) c]
  exact (v1_apply m ρ c bb s k).trans (congrFun (act_eq m ρ c) _)

/-- Entry (o, k) of the sign matrix is the sign of weight row o's centred entry k. -/
theorem sign_apply (o : Fin 11008) (k : Fin 4096) :
    W4 (F := Ideal) m ρ c (Proc.devRef .tc main_v0_0) (ix2 o k)
      = Cert.Xnor.sgn (Cert.Xnor.centred (fun k' => m ((c : Thread nD τ).loc main_arg1) (ix2 o k')) k) := by
  rw [sign_eq, final_sign_apply (V0r m ρ) c o k]; rfl

/-- Entry o of the scale row is weight row o's mean centred magnitude. -/
theorem scale_apply (o : Fin 11008) :
    W4 (F := Ideal) m ρ c (Proc.devRef .tc main_v3) (ix2 (0 : Fin 1) o)
      = Cert.Xnor.rowScale (fun k' => m ((c : Thread nD τ).loc main_arg1) (ix2 o k')) := by
  rw [v3_apply, scale_eq, final_scale_apply (V0r m ρ) c o]; rfl

/-- Entry o of the bias row is entry o of the bias as launched. -/
theorem bias_apply (o : Fin 11008) :
    W4 (F := Ideal) m ρ c (Proc.devRef .tc main_v4) (ix2 (0 : Fin 1) o) = m ((c : Thread nD τ).loc main_arg2) (ix1 o) := by
  rw [v4_apply]; exact congrFun (bias_eq m ρ c) _

/-- THE RESULT at an entry is the specification's entry of the launched arrays. -/
theorem result_entry (bb : Fin 4) (s : Fin 2048) (o : Fin 11008) :
    W6 (F := Ideal) m ρ c (Proc.devRef .tc main_v6) (ix3 bb s o)
      = Cert.Xnor.entry (fun k => m ((c : Thread nD τ).loc main_arg0) (ix3 bb s k))
          (fun k => m ((c : Thread nD τ).loc main_arg1) (ix2 o k)) (m ((c : Thread nD τ).loc main_arg2) (ix1 o)) := by
  rw [v6_apply, prod_eq, final2 (V4r m ρ) c]
  have hx : (fun k : Fin 4096 => (W4 (F := Ideal) m ρ c (Proc.devRef .tc main_v2) (ix2 (⟨bb.val * 2048 + s.val, by omega⟩ : Fin 8192) k) : EReal))
      = fun k => m ((c : Thread nD τ).loc main_arg0) (ix3 bb s k) := funext (conv_apply m ρ c bb s)
  have hs : (fun k : Fin 4096 => (W4 (F := Ideal) m ρ c (Proc.devRef .tc main_v0_0) (ix2 o k) : EReal))
      = fun k => Cert.Xnor.sgn (Cert.Xnor.centred (fun k' => m ((c : Thread nD τ).loc main_arg1) (ix2 o k')) k) :=
    funext (sign_apply m ρ c o)
  exact (congr (congr (congr (congrArg affineDot hx) hs) (scale_apply m ρ c o)) (bias_apply m ρ c o)).trans rfl

end Cert.KernelIdeal.HandValue

end
-- ==== Proof.Algebra.lean ====
/-
  The extended-real algebra that joins the two arrangements of the binarized linear layer.

  Both programs centre a weight row by its mean, take the mean magnitude of the centred row as its scale, and replace
  every centred entry by its sign. They differ in where the scale enters: one multiplies the finished inner product by
  it, `(∑ k, x k · s k) · c + b`; the other scales the signs first, `∑ k, x k · (s k · c) + b`, and writes the sign as
  `y + (sign y - y)`. On the extended reals neither rearrangement is free: `y + (s - y) = s` cancels `y`, and moving `c`
  across the sum is distributivity; both hold when every entry is a real number, and that is how they are proved here —
  every quantity is shown to be the image of a real one, and the law is the reals' `Finset.sum_mul`.
-/
import proofs.«145953_j44349832298614_2_alg».proof.Proof.Spec
import Idealize.ShloMosaic.PureOps.Ideal.Laws

noncomputable section

open scoped BigOperators

namespace Cert.Xnor

open Idealize.ShloMosaic

/-! ## Constants and coercions -/

/-- The word `0x45800000` denotes the real `4096`, the length of a row. -/
theorem ofBits_4096 : Ideal.ofBits .f32 0x45800000#32 = ((4096 : ℝ) : EReal) := by
  simp [Ideal.ofBits, Ideal.ieee, -EReal.coe_mul]; norm_num

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The magnitude `max y (-y)` of a real, taken on the extended reals, is the real `|y|`. -/
theorem max_neg_coe (y : ℝ) : max (y : EReal) (-(y : EReal)) = ((|y| : ℝ) : EReal) := by
  rw [← EReal.coe_neg, abs_eq_max_neg]
  exact (EReal.coe_strictMono.monotone.map_max).symm

/-- Division of a real by the row length is the real product with `1/4096`. -/
theorem div_4096_coe (a : ℝ) :
    Ideal.div (a : EReal) (Ideal.ofBits .f32 0x45800000#32) = ((a * (1 / 4096) : ℝ) : EReal) := by
  rw [ofBits_4096, Ideal.div_coe (by norm_num), ← EReal.coe_mul]

/-! ## The real quantities of a row -/

/-- The mean of a real row of 4096 entries. -/
def meanR (ρ : Fin 4096 → ℝ) : ℝ := (∑ k, ρ k) * (1 / 4096)

/-- A real row's entry less the row's mean. -/
def centredR (ρ : Fin 4096 → ℝ) (k : Fin 4096) : ℝ := ρ k - meanR ρ

/-- The mean magnitude of the centred real row. -/
def scaleR (ρ : Fin 4096 → ℝ) : ℝ := (∑ k, |centredR ρ k|) * (1 / 4096)

/-! ## The specification on a real row

Every quantity of the specification, on a row whose entries are reals, is the image of the real quantity. -/

section Spec

variable {x r : Fin 4096 → Ideal .f32} {ξ ρ : Fin 4096 → ℝ}

theorem rowMean_coe (hr : ∀ k, r k = (ρ k : EReal)) : rowMean r = (meanR ρ : EReal) := by
  unfold rowMean meanR
  rw [Ideal.divf_def, Ideal.ofBits_def, Finset.sum_congr rfl (fun k _ => hr k), ← coe_sum, div_4096_coe]

theorem centred_coe (hr : ∀ k, r k = (ρ k : EReal)) (k : Fin 4096) : centred r k = (centredR ρ k : EReal) := by
  unfold centred centredR
  rw [Ideal.subf_def, hr k, rowMean_coe hr, ← EReal.coe_sub]

theorem rowScale_coe (hr : ∀ k, r k = (ρ k : EReal)) : rowScale r = (scaleR ρ : EReal) := by
  unfold rowScale scaleR
  rw [Ideal.divf_def, Ideal.ofBits_def,
    Finset.sum_congr rfl (fun k _ => show FloatOps.absf (centred r k) = ((|centredR ρ k| : ℝ) : EReal) from by
      rw [Ideal.absf_def, centred_coe hr, max_neg_coe]),
    ← coe_sum, div_4096_coe]

/-- The two comparisons of `sgn` compute the sign: on every extended real, `sgn` is the order's sign. -/
theorem sgn_eq_sign (y : Ideal .f32) : sgn y = Ideal.sign y := Ideal.jnp_sign_eq_sign_f32 y

/-- On a real, `sgn` is the real sign. -/
theorem sgn_coe (y : ℝ) : sgn ((y : ℝ) : EReal) = ((SignType.sign y : ℝ) : EReal) := by
  rw [sgn_eq_sign, Ideal.sign_coe]

/-- The specification's entry on real rows: `(∑ k, ξ k · sign (centred k)) · scale`, a real, plus the bias. -/
theorem entry_coe (hx : ∀ k, x k = (ξ k : EReal)) (hr : ∀ k, r k = (ρ k : EReal)) (b : Ideal .f32) :
    entry x r b = (((∑ k, ξ k * (SignType.sign (centredR ρ k) : ℝ)) * scaleR ρ : ℝ) : EReal) + b := by
  unfold entry
  rw [Ideal.addf_def, Ideal.mulf_def, rowScale_coe hr,
    Finset.sum_congr rfl (fun k _ => show FloatOps.mulf (x k) (sgn (centred r k))
        = ((ξ k * (SignType.sign (centredR ρ k) : ℝ) : ℝ) : EReal) from by
      rw [Ideal.mulf_def, hx k, centred_coe hr, sgn_coe, ← EReal.coe_mul]),
    ← coe_sum, ← EReal.coe_mul]

end Spec

/-! ## The other arrangement

The host computes the same entry with the row's sums taken from the initial value zero, the sign written as
`y + (sign y - y)`, and the scale multiplied into each sign before the inner product. -/

/-- The host's mean of a row: the sum from the initial value zero, over 4096. -/
def refMean (r : Fin 4096 → Ideal .f32) : Ideal .f32 :=
  FloatOps.hostDivf (FloatOps.ofBits (F := Ideal) .f32 0x00000000#32 + ∑ k : Fin 4096, r k)
    (FloatOps.ofBits (F := Ideal) .f32 0x45800000#32)

/-- The host's centred entry. -/
def refCentred (r : Fin 4096 → Ideal .f32) (k : Fin 4096) : Ideal .f32 :=
  FloatOps.subf (r k) (refMean r)

/-- The host's scale of a row: the sum of the centred magnitudes from zero, over 4096. -/
def refScale (r : Fin 4096 → Ideal .f32) : Ideal .f32 :=
  FloatOps.hostDivf (FloatOps.ofBits (F := Ideal) .f32 0x00000000#32 + ∑ k : Fin 4096, FloatOps.hostAbsf (refCentred r k))
    (FloatOps.ofBits (F := Ideal) .f32 0x45800000#32)

/-- The host's entry: the activations against the scaled signs, `y + (sign y - y)` times the scale, plus the bias. -/
def refEntry (x r : Fin 4096 → Ideal .f32) (b : Ideal .f32) : Ideal .f32 :=
  FloatOps.addf
    (∑ k : Fin 4096, x k * FloatOps.mulf
      (FloatOps.addf (refCentred r k) (FloatOps.subf (FloatOps.hostUnary .sign (refCentred r k)) (refCentred r k)))
      (refScale r))
    b

section Ref

variable {x r : Fin 4096 → Ideal .f32} {ξ ρ : Fin 4096 → ℝ}

theorem refMean_coe (hr : ∀ k, r k = (ρ k : EReal)) : refMean r = (meanR ρ : EReal) := by
  unfold refMean meanR
  rw [Ideal.hostDivf_def, Ideal.ofBits_def, Ideal.ofBits_def, Ideal.ofBits_zero_f32, zero_add,
    Finset.sum_congr rfl (fun k _ => hr k), ← coe_sum, div_4096_coe]

theorem refCentred_coe (hr : ∀ k, r k = (ρ k : EReal)) (k : Fin 4096) : refCentred r k = (centredR ρ k : EReal) := by
  unfold refCentred centredR
  rw [Ideal.subf_def, hr k, refMean_coe hr, ← EReal.coe_sub]

theorem refScale_coe (hr : ∀ k, r k = (ρ k : EReal)) : refScale r = (scaleR ρ : EReal) := by
  unfold refScale scaleR
  rw [Ideal.hostDivf_def, Ideal.ofBits_def, Ideal.ofBits_def, Ideal.ofBits_zero_f32, zero_add,
    Finset.sum_congr rfl (fun k _ => show FloatOps.hostAbsf (refCentred r k) = ((|centredR ρ k| : ℝ) : EReal) from by
      rw [Ideal.hostAbsf_def, Ideal.absf_def, refCentred_coe hr, max_neg_coe]),
    ← coe_sum, div_4096_coe]

/-- On a real `y`, `y + (sign y - y)` is the sign: the cancellation the extended reals do not have at infinity. -/
theorem add_sign_sub_coe (y : ℝ) :
    FloatOps.addf (F := Ideal) (φ := .f32) (y : EReal)
        (FloatOps.subf (F := Ideal) (φ := .f32) (FloatOps.hostUnary (F := Ideal) (φ := .f32) .sign (y : EReal)) (y : EReal))
      = ((SignType.sign y : ℝ) : EReal) := by
  rw [Ideal.addf_def, Ideal.subf_def, Ideal.hostUnary_sign_def, Ideal.sign_coe, ← EReal.coe_sub, ← EReal.coe_add,
    add_sub_cancel]

/-- The host's entry on real rows: `∑ k, ξ k · (sign (centred k) · scale)`, a real, plus the bias. -/
theorem refEntry_coe (hx : ∀ k, x k = (ξ k : EReal)) (hr : ∀ k, r k = (ρ k : EReal)) (b : Ideal .f32) :
    refEntry x r b = ((∑ k, ξ k * ((SignType.sign (centredR ρ k) : ℝ) * scaleR ρ) : ℝ) : EReal) + b := by
  unfold refEntry
  rw [Ideal.addf_def,
    Finset.sum_congr rfl (fun k _ => show x k * FloatOps.mulf
          (FloatOps.addf (refCentred r k) (FloatOps.subf (FloatOps.hostUnary .sign (refCentred r k)) (refCentred r k)))
          (refScale r)
        = ((ξ k * ((SignType.sign (centredR ρ k) : ℝ) * scaleR ρ) : ℝ) : EReal) from by
      rw [Ideal.mulf_def, hx k, refCentred_coe hr, refScale_coe hr, add_sign_sub_coe, ← EReal.coe_mul, ← EReal.coe_mul]),
    ← coe_sum]

end Ref

/-! ## The law -/

/-- On rows of reals the two arrangements agree: the scale moves across the inner product (`Finset.sum_mul`). The bias
    may be any extended real. -/
theorem entry_eq_refEntry {x r : Fin 4096 → Ideal .f32} (hx : ∀ k, ∃ a : ℝ, x k = (a : EReal))
    (hr : ∀ k, ∃ a : ℝ, r k = (a : EReal)) (b : Ideal .f32) : entry x r b = refEntry x r b := by
  choose ξ hξ using hx
  choose ρ hρ using hr
  rw [entry_coe hξ hρ, refEntry_coe hξ hρ, Finset.sum_mul]
  exact congrArg (fun t : ℝ => ((t : ℝ) : EReal) + b) (Finset.sum_congr rfl fun k _ => mul_assoc _ _ _)

end Cert.Xnor

end
-- ==== Proof.RefValue.lean ====
/-
  The reference program's output entry is the specification's entry.

  Read one operation at a time at the output index (bb, s, o), the reference is: the inner product over k of the
  activation x[bb, s, k] with the scaled sign of the centred weight w[o, k], plus the bias b[o] — the row mean and the row
  scale being sums along the row o from the initial value zero, over 4096. Every broadcast and keepdims axis composes to a
  plain index: the row sums at (o, j) read row o whatever the column j. That is the host's arrangement `refEntry` of the
  three rows, which on rows of reals is the specification's `entry`.
-/
import proofs.«145953_j44349832298614_2_alg».proof.Proof.Gen.ReferenceIdeal.Read
import proofs.«145953_j44349832298614_2_alg».proof.Proof.Spec
import proofs.«145953_j44349832298614_2_alg».proof.Proof.Algebra

noncomputable section

open scoped BigOperators

namespace Cert.Xnor.Ref

open Idealize.ShloMosaic Idealize.ShloMosaic.ValueIdx Cert.ReferenceIdeal Cert.ReferenceIdeal.Read

/-! ## The composed index maps, at coordinates -/

/-- The inner product's left operand at output (bb, s, o) and contraction index k is the activation at (bb, s, k). -/
theorem lidx_eq (bb : Fin 4) (s : Fin 2048) (o : Fin 11008) (k : Fin 4096) :
    lidx_main_v16 (ix3 bb s o) k = ix3 bb s k :=
  funext fun a => Fin.ext (by match a with | ⟨0, _⟩ => rfl | ⟨1, _⟩ => rfl | ⟨2, _⟩ => rfl)

/-- Its right operand is the scaled sign at (o, k). -/
theorem ridx_eq (bb : Fin 4) (s : Fin 2048) (o : Fin 11008) (k : Fin 4096) :
    ridx_main_v16 (ix3 bb s o) k = ix2 o k :=
  funext fun a => Fin.ext (by match a with | ⟨0, _⟩ => rfl | ⟨1, _⟩ => rfl)

/-- The row mean broadcast to (o, j) sums the weights of row o: its k-th term is the weight at (o, k). -/
theorem mean_idx_eq (o : Fin 11008) (j k : Fin 4096) :
    idx_main_v0 (idx_main_v1 (idx_main_v4 (ix2 o j))) k = ix2 o k :=
  funext fun a => Fin.ext (by match a with | ⟨0, _⟩ => rfl | ⟨1, _⟩ => rfl)

/-- The row scale broadcast to (o, j) sums the centred magnitudes of row o: its k-th term sits at (o, k). -/
theorem scale_idx_eq (o : Fin 11008) (j k : Fin 4096) :
    idx_main_v7 (idx_main_v8 (idx_main_v14 (ix2 o j))) k = ix2 o k :=
  funext fun a => Fin.ext (by match a with | ⟨0, _⟩ => rfl | ⟨1, _⟩ => rfl)

/-- The bias broadcast to (bb, s, o) is the bias at o. -/
theorem bias_idx_eq (bb : Fin 4) (s : Fin 2048) (o : Fin 11008) :
    idx_main_v17 (idx_main_v18 (ix3 bb s o)) = ix1 o :=
  funext fun a => Fin.ext (by match a with | ⟨0, _⟩ => rfl)

/-! ## The reference at an output index -/

variable (x0 : (⟨S4x2048x4096, .f32⟩ : BufTy).Contents (Elt Ideal))
  (x1 : (⟨S11008x4096, .f32⟩ : BufTy).Contents (Elt Ideal))
  (x2 : (⟨S11008, .f32⟩ : BufTy).Contents (Elt Ideal))

/-- The reference's entry at (bb, s, o) is the host's arrangement of the activations' row (bb, s), the weights' row o and
    the bias at o. No finiteness is needed: this only reads the operations at an index. -/
theorem val_eq_refEntry (bb : Fin 4) (s : Fin 2048) (o : Fin 11008) :
    val_main_v19 (F := Ideal) x0 x1 x2 (ix3 bb s o)
      = refEntry (fun k => x0 (ix3 bb s k)) (fun k => x1 (ix2 o k)) (x2 (ix1 o)) := by
  rw [val_main_v19_apply, val_main_v16_apply, val_main_v18_apply, val_main_v17_apply]
  simp only [lidx_eq, ridx_eq, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply,
    scale_idx_eq, mean_idx_eq, bias_idx_eq]
  rfl

/-- On arrays of reals the reference's entry at (bb, s, o) is the specification's entry of the three rows. -/
theorem val_eq_entry (hx : ∀ i, ∃ r : ℝ, x0 i = (r : EReal)) (hw : ∀ i, ∃ r : ℝ, x1 i = (r : EReal))
    (hb : ∀ i, ∃ r : ℝ, x2 i = (r : EReal)) (bb : Fin 4) (s : Fin 2048) (o : Fin 11008) :
    val_main_v19 (F := Ideal) x0 x1 x2 (ix3 bb s o)
      = Cert.Xnor.entry (fun k => x0 (ix3 bb s k)) (fun k => x1 (ix2 o k)) (x2 (ix1 o)) := by
  rw [val_eq_refEntry]
  exact (entry_eq_refEntry (fun k => hx (ix3 bb s k)) (fun k => hw (ix2 o k)) (x2 (ix1 o))).symm

end Cert.Xnor.Ref

end
-- ==== Proof.Finite.lean ====
/-
  Finiteness of the inputs, read out of the precondition.

  The precondition `finite_inputs` is, for each of the three argument arrays, the conjunction over every entry of
  `|a| < +inf`, and the three conjunctions joined. A conjunction that came out one had a one at every entry; and an
  extended real whose magnitude `max a (-a)` lies strictly below the top element is neither infinity, hence a real.
-/
import proofs.«145953_j44349832298614_2_alg».proof.Defs
import proofs.«145953_j44349832298614_2_alg».proof.Proof.Gen.Pre_finite_inputs
import Idealize.ShloMosaic.Lib.ReduceAll

noncomputable section

namespace Cert.Xnor.Finite

open Idealize.ShloMosaic Idealize.SL.Sem Cert.Pre_finite_inputs

/-- The scalar shape has one index. -/
instance : Subsingleton S_.Idx := ⟨fun a b => funext fun d => d.elim0⟩

/-- The word `0x7F800000` denotes the top element. -/
theorem ofBits_inf : Ideal.ofBits .f32 0x7F800000#32 = ⊤ := by simp [Ideal.ofBits, Ideal.ieee]

/-- An extended real whose magnitude compares below `+inf` is a real. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  change Ideal.cmp .olt (max a (-a)) (Ideal.ofBits .f32 0x7F800000#32) = 1#1 at h
  rw [ofBits_inf] at h
  induction a using EReal.rec with
  | bot => simp [Ideal.cmp] at h
  | top => simp [Ideal.cmp] at h
  | coe r => exact ⟨r, rfl⟩

/-- One array: if the conjunction over all its entries of `|a| < +inf` is one, every entry is a real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
          (constantI S_ 1 1#1) hr hu j = 1#1) (i : s.Idx) : ∃ r : ℝ, x i = (r : EReal) :=
  real_of_abs_lt_inf (x i) (Host.reduce_andi_all _ _ hr hu j e i)

/-- Under the precondition every entry of the three argument arrays is a real, on every device. -/
theorem of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) (fun a => a.elim0)
  dsimp only [Cert.Pre_finite_inputs.fn] at h0
  obtain ⟨h01, h2⟩ := IntOp.andi_eq_one.1 h0
  obtain ⟨h0', h1⟩ := IntOp.andi_eq_one.1 h01
  exact ⟨all_real _ _ _ _ _ h0', all_real _ _ _ _ _ h1, all_real _ _ _ _ _ h2⟩

end Cert.Xnor.Finite

end
-- ==== Proof.KernelFrameBase.lean ====
/-
  The frame of the word-level program: it runs to the end from any memory with zero counters, faults nowhere, and
  leaves its three argument arrays unchanged. This file: the resource algebra (two copies of the rounds algebra over
  the machine's cells, side by side) and a staging buffer held whole at contents nobody names.

  Why contents go unnamed. The first kernel's row sums are taken over its whole input staging buffer. At the last grid
  point only the rows inside the array are fetched; the buffer's tail keeps words no assertion determines, and at the
  word level a lane sum is a function of the whole buffer. So what that kernel writes back cannot be named from the
  launch memory, nor can anything computed from it. The frame needs none of it: every staging buffer is taken at some
  contents and given back at some contents, every array a kernel writes ends at some contents, and the only equations
  kept are those of the three argument arrays, which no kernel and no host operation writes.
-/
import proofs.«145953_j44349832298614_2_alg».proof.Proof.Gen.Kernel.Launch
import proofs.«145953_j44349832298614_2_alg».proof.Proof.Gen.Kernel.Skeleton
import proofs.«145953_j44349832298614_2_alg».proof.Proof.Gen.Kernel.Points
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

/-- The proof's resource algebra: two copies of the rounds algebra over the machine's cells, side by side. -/
abbrev UU : Type := UR sig nD τ × UR sig nD τ

local notation "𝕄" => MT nD τ sig Unit (Elt F) ℕ UU ℕ

/-! # Staging buffers at contents nobody names -/

/-- The memref's elements, held whole at the full share, at some contents. -/
def anyAt (c : Dev nD) {sp : Space} {sh : Shape} {e : EltTy} (m : Memref sig .tc sp sh e) : sProp 𝕄 :=
  iprop(∃ f : m.view.ty.Contents (Elt F), (m.view.loc (c : Thread nD τ) ↦[m.view.set]{fullShare} f))

theorem anyAt_of_owns (c : Dev nD) {sp : Space} {sh : Shape} {e : EltTy} (m : Memref sig .tc sp sh e) :
    (iprop(∃ d, owns (c : Thread nD τ) m fullShare d) : sProp 𝕄) ⊢ anyAt (F := F) c m := by
  unfold owns anyAt
  iintro ⟨%d, %f, -, H⟩; iexists f; iexact H

theorem owns_of_anyAt (c : Dev nD) {sp : Space} {sh : Shape} {e : EltTy} (m : Memref sig .tc sp sh e) :
    anyAt (F := F) c m ⊢ (iprop(∃ d, owns (c : Thread nD τ) m fullShare d) : sProp 𝕄) := by
  unfold anyAt
  iintro ⟨%f, H⟩; iexists _
  iapply (owns_intro (c : Thread nD τ) m fullShare f); iexact H

end Cert.Kernel.Hand

end
-- ==== Proof.KernelFrameBody0.lean ====
/-
  The frame of the word-level program, the kernel bodies: the row-statistics body (one whole load, two whole stores each after an unused whole load).
  Nothing is claimed of the values computed: each staging buffer is held whole at some contents before the body and at
  some contents after it.
-/
import proofs.«145953_j44349832298614_2_alg».proof.Proof.KernelFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! # The row-statistics body as a memory program

One whole load of the input staging buffer, then for each of the two output staging buffers an unused whole load and a
whole store. Nothing is claimed of the values: each buffer is taken at some contents and given back at some contents. -/

set_option maxHeartbeats 2000000 in
/-- The row-statistics body runs from its three staging buffers at any contents and gives them back at some contents. -/
theorem sound_kernel0 (c : Dev nD) (E : Set ℕ) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512x1 .f32) (harg3 : arg3.IsWhole) (K : PUnit → sProp 𝕄) :
    iprop(anyAt (F := F) c arg1 ∗ anyAt (F := F) c arg2 ∗ anyAt (F := F) c arg3
        ∗ (iprop(anyAt (F := F) c arg1 ∗ anyAt (F := F) c arg2 ∗ anyAt (F := F) c arg3) -∗ K ⟨⟩))
      ⊢ wp frame (wpE (defs₀ (F := F)) Variants.none c none) E (cc0__binarize_kernel i arg1 harg1 arg2 harg2 arg3 harg3) K := by
  simp only [cc0__binarize_kernel_eq_skeleton]; unfold cc0__binarize_kernel_skel
  unfold anyAt
  iintro ⟨⟨%f1, H1⟩, ⟨%f2, H2⟩, ⟨%f3, H3⟩, Hk⟩
  sl_exec
  sl_step
  iapply Hk
  isplitl [H1]; · iexists _; iexact H1
  isplitl [H2]; · iexists _; iexact H2
  iexists _; iexact H3

end Cert.Kernel.Hand

end
-- ==== Proof.KernelFrameBody1.lean ====
/-
  The frame of the word-level program, the kernel bodies: the cast body (one whole load, one whole store after an unused whole load).
  Nothing is claimed of the values computed: each staging buffer is held whole at some contents before the body and at
  some contents after it.
-/
import proofs.«145953_j44349832298614_2_alg».proof.Proof.KernelFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! # The cast body as a memory program

One whole load of the input staging buffer, an unused whole load of the output staging buffer, one whole store into it.
Nothing is claimed of the values: each buffer is taken at some contents and given back at some contents. -/

set_option maxHeartbeats 2000000 in
/-- The cast body runs from its two staging buffers at any contents and gives them back at some contents. -/
theorem sound_kernel1 (c : Dev nD) (E : Set ℕ) (i : grid1.Coords)
    (arg1 : Memref sig .tc .vmem S512x4096 .f32) (harg1 : arg1.IsWhole)
    (arg2 : Memref sig .tc .vmem S512x4096 .bf16) (harg2 : arg2.IsWhole) (K : PUnit → sProp 𝕄) :
    iprop(anyAt (F := F) c arg1 ∗ anyAt (F := F) c arg2
        ∗ (iprop(anyAt (F := F) c arg1 ∗ anyAt (F := F) c arg2) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold anyAt
  iintro ⟨⟨%f1, H1⟩, ⟨%f2, H2⟩, Hk⟩
  sl_exec
  sl_step
  iapply Hk
  isplitl [H1]; · iexists _; iexact H1
  iexists _; iexact H2

end Cert.Kernel.Hand

end
-- ==== Proof.KernelFrameBody2.lean ====
/-
  The frame of the word-level program, the kernel bodies: the product body (four whole loads, one whole store after an unused whole load).
  Nothing is claimed of the values computed: each staging buffer is held whole at some contents before the body and at
  some contents after it.
-/
import proofs.«145953_j44349832298614_2_alg».proof.Proof.KernelFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! # The product body as a memory program

Whole loads of its four input staging buffers, an unused whole load of the output staging buffer, one whole store into
it. Nothing is claimed of the values: each buffer is taken at some contents and given back at some contents. -/

set_option maxHeartbeats 2000000 in
/-- The product body runs from its five staging buffers at any contents and gives them back at some contents. -/
theorem sound_kernel2 (c : Dev nD) (E : Set ℕ) (i : grid2.Coords)
    (arg2 : Memref sig .tc .vmem S2048x4096 .bf16) (harg2 : arg2.IsWhole)
    (arg3 : Memref sig .tc .vmem S256x4096 .bf16) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S2048x256 .f32) (harg6 : arg6.IsWhole) (K : PUnit → sProp 𝕄) :
    iprop(anyAt (F := F) c arg2 ∗ anyAt (F := F) c arg3 ∗ anyAt (F := F) c arg4 ∗ anyAt (F := F) c arg5 ∗ anyAt (F := F) c arg6
        ∗ (iprop(anyAt (F := F) c arg2 ∗ anyAt (F := F) c arg3 ∗ anyAt (F := F) c arg4 ∗ anyAt (F := F) c arg5 ∗ anyAt (F := F) c arg6) -∗ K ⟨⟩))
      ⊢ wp frame (wpE (defs₀ (F := F)) Variants.none c none) E (cc2__matmul_kernel i arg2 harg2 arg3 harg3 arg4 harg4 arg5 harg5 arg6 harg6) K := by
  simp only [cc2__matmul_kernel_eq_skeleton]; unfold cc2__matmul_kernel_skel
  unfold anyAt
  iintro ⟨⟨%f2, H2⟩, ⟨%f3, H3⟩, ⟨%f4, H4⟩, ⟨%f5, H5⟩, ⟨%f6, H6⟩, Hk⟩
  sl_exec
  sl_step
  iapply Hk
  isplitl [H2]; · iexists _; iexact H2
  isplitl [H3]; · iexists _; iexact H3
  isplitl [H4]; · iexists _; iexact H4
  isplitl [H5]; · iexists _; iexact H5
  iexists _; iexact H6

end Cert.Kernel.Hand

end
-- ==== Proof.KernelFrameDat.lean ====
/-
  The frame of the word-level program, the proof data of its three kernels with every window's staging contents left
  unnamed: each windowed array at the contents the kernel is entered at; between what a body is handed in a staging
  buffer and what it leaves there, the relation that holds of everything; between grid points, the scoped buffers no
  window stages and the generator register; nothing owed; full shares. And the body obligations: from its staging
  buffers at any contents each body runs and gives them back at some contents.
-/
import proofs.«145953_j44349832298614_2_alg».proof.Proof.KernelFrameBase
import proofs.«145953_j44349832298614_2_alg».proof.Proof.Gen.Kernel.Regions
import Idealize.ShloMosaic.Lib.Pipeline.FrameSuffix
import Idealize.ShloMosaic.Lib.Pipeline.Regions
import Idealize.ShloMosaic.Lib.Pipeline.Frame
import Idealize.ShloMosaic.Lib.Pipeline.Kit
import proofs.«145953_j44349832298614_2_alg».proof.Proof.KernelFrameBody0
import proofs.«145953_j44349832298614_2_alg».proof.Proof.KernelFrameBody1
import proofs.«145953_j44349832298614_2_alg».proof.Proof.KernelFrameBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! # What every region's record shares -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item of the program: the generator register at some state and the
    core owing nothing. -/
abbrev R (c : Dev nD) : sProp 𝕄 := iprop((∃ r, prngReg c r) ∗ ∃ W, owes (c : Thread nD τ) (0 : CellTallies nD τ sig Unit) W)

/-- A valuation read at the TensorCore's references. -/
abbrev Vof (W : Valuation τ sig (Elt F)) (c : Dev nD) : (b : Ref sig .tc) → Buf (Elt F) ((c : Thread nD τ).loc b) := fun b => W b

/-- Two valuations agree on the three argument arrays. -/
def Keeps (W W' : Valuation τ sig (Elt F)) : Prop :=
  W' (Proc.devRef .tc main_arg0) = W (Proc.devRef .tc main_arg0) ∧ W' (Proc.devRef .tc main_arg1) = W (Proc.devRef .tc main_arg1)
    ∧ W' (Proc.devRef .tc main_arg2) = W (Proc.devRef .tc main_arg2)

theorem Keeps.trans {W W' W'' : Valuation τ sig (Elt F)} (h : Keeps W W') (h' : Keeps W' W'') : Keeps W W'' :=
  ⟨h'.1.trans h.1, h'.2.1.trans h.2.1, h'.2.2.trans h.2.2⟩

/-- A pipeline's arrays at contents `Fs` and the unscoped rest at `V` are the core's unscoped buffers at any valuation
    that has the arrays at `Fs` and agrees with `V` off them (relational proof data). -/
theorem unscopedBufs_of_arraysR (rdats : (p : Fin 3) → (c : Dev nD) → RDat τ (Elt F) Unit ℕ UU ℕ (Pipeline.pin (pcfgs (F := F)) adm p) c)
    {p : Fin 3} (hw : Pipeline.WinFacts (Pipeline.pin (pcfgs (F := F)) adm p).spec)
    (harr : ∀ w, ((Pipeline.pin (pcfgs (F := F)) adm p).spec w).arr.IsWhole)
    (c : Dev nD) (hshare : ∀ w, (rdats p c).share w = fullShare)
    (V V' : (b : Ref sig .tc) → Buf (Elt F) ((c.tc : Thread nD τ).loc b))
    (Fs : (w : Fin (Pipeline.pin (pcfgs (F := F)) adm p).W) → Buf (Elt F) (((Pipeline.pin (pcfgs (F := F)) adm p).spec w).arr.view.loc (c.tc : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats p c).arrays Fs ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rdats p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## Region 0: the proof data, every window forgotten -/

/-- The proof data of pipeline 0 on core `c` when the region is entered at buffer contents `W`: the arrays as found; of what
    the body leaves in a staging buffer nothing is said; the invariant the scoped rest and the generator register;
    nothing owed; full shares. -/
def rd0 (W : Valuation τ sig (Elt F)) (c : Dev nD) : RDat τ (Elt F) Unit ℕ UU ℕ cfg0 c where
  A w := Vof W c (Pipeline.arrRef spec0 w)
  after _ _ _ _ := True
  Φ _ := Pipeline.ΦA spec0 c
  q _ := fullShare
  owed _ := 0

/-- The body obligation: each current staging buffer comes back at some contents. -/
theorem body_obligation0 (W : Valuation τ sig (Elt F)) (c : Dev nD) :
    (rd0 (F := F) W c).BodyObligation (defs₀ (F := F)) Variants.none () Set.univ := fun t Y _ => by
  rw [bigSep_W0, bigSep_W0]
  show _ ⊢ wp frame (wpE (defs₀ (F := F)) Variants.none c none) Set.univ (bodyAt0 t) _
  rw [show (rd0 (F := F) W c).Φ t.succ = (rd0 (F := F) W c).Φ t.castSucc from rfl,
    show (rd0 (F := F) W c).owesAt () t.succ = (rd0 (F := F) W c).owesAt () t.castSucc from rfl]
  iintro ⟨HΦ, Ho, H0, H1, H2⟩
  iapply (sound_kernel0 (F := F) c Set.univ _ _ _ _ _ _ _ _)
  isplitl [H0]; · iapply (anyAt_of_owns (F := F) c _); iexists _; iexact H0
  isplitl [H1]; · iapply (anyAt_of_owns (F := F) c _); iexists _; iexact H1
  isplitl [H2]; · iapply (anyAt_of_owns (F := F) c _); iexists _; iexact H2
  iintro ⟨H0, H1, H2⟩
  isplitl [HΦ]; · iexact HΦ
  isplitl [Ho]; · iexact Ho
  isplitl [H0]
  · ihave H := (owns_of_anyAt (F := F) c _) $$ H0; icases H with ⟨%X, H⟩; iexists X; isplitr; · ipureintro; trivial
    iexact H
  isplitl [H1]
  · ihave H := (owns_of_anyAt (F := F) c _) $$ H1; icases H with ⟨%X, H⟩; iexists X; isplitr; · ipureintro; trivial
    iexact H
  · ihave H := (owns_of_anyAt (F := F) c _) $$ H2; icases H with ⟨%X, H⟩; iexists X; isplitr; · ipureintro; trivial
    iexact H

/-! ## Region 1: the proof data, every window forgotten -/

/-- The proof data of pipeline 1 on core `c` when the region is entered at buffer contents `W`: the arrays as found; of what
    the body leaves in a staging buffer nothing is said; the invariant the scoped rest and the generator register;
    nothing owed; full shares. -/
def rd1 (W : Valuation τ sig (Elt F)) (c : Dev nD) : RDat τ (Elt F) Unit ℕ UU ℕ cfg1 c where
  A w := Vof W c (Pipeline.arrRef spec1 w)
  after _ _ _ _ := True
  Φ _ := Pipeline.ΦA spec1 c
  q _ := fullShare
  owed _ := 0

/-- The body obligation: each current staging buffer comes back at some contents. -/
theorem body_obligation1 (W : Valuation τ sig (Elt F)) (c : Dev nD) :
    (rd1 (F := F) W c).BodyObligation (defs₀ (F := F)) Variants.none () Set.univ := fun t Y _ => by
  rw [bigSep_W1, bigSep_W1]
  show _ ⊢ wp frame (wpE (defs₀ (F := F)) Variants.none c none) Set.univ (bodyAt1 t) _
  rw [show (rd1 (F := F) W c).Φ t.succ = (rd1 (F := F) W c).Φ t.castSucc from rfl,
    show (rd1 (F := F) W c).owesAt () t.succ = (rd1 (F := F) W c).owesAt () t.castSucc from rfl]
  iintro ⟨HΦ, Ho, H0, H1⟩
  iapply (sound_kernel1 (F := F) c Set.univ _ _ _ _ _ _)
  isplitl [H0]; · iapply (anyAt_of_owns (F := F) c _); iexists _; iexact H0
  isplitl [H1]; · iapply (anyAt_of_owns (F := F) c _); iexists _; iexact H1
  iintro ⟨H0, H1⟩
  isplitl [HΦ]; · iexact HΦ
  isplitl [Ho]; · iexact Ho
  isplitl [H0]
  · ihave H := (owns_of_anyAt (F := F) c _) $$ H0; icases H with ⟨%X, H⟩; iexists X; isplitr; · ipureintro; trivial
    iexact H
  · ihave H := (owns_of_anyAt (F := F) c _) $$ H1; icases H with ⟨%X, H⟩; iexists X; isplitr; · ipureintro; trivial
    iexact H

/-! ## Region 2: the proof data, every window forgotten -/

/-- The proof data of pipeline 2 on core `c` when the region is entered at buffer contents `W`: the arrays as found; of what
    the body leaves in a staging buffer nothing is said; the invariant the scoped rest and the generator register;
    nothing owed; full shares. -/
def rd2 (W : Valuation τ sig (Elt F)) (c : Dev nD) : RDat τ (Elt F) Unit ℕ UU ℕ cfg2 c where
  A w := Vof W c (Pipeline.arrRef spec2 w)
  after _ _ _ _ := True
  Φ _ := Pipeline.ΦA spec2 c
  q _ := fullShare
  owed _ := 0

/-- The body obligation: each current staging buffer comes back at some contents. -/
theorem body_obligation2 (W : Valuation τ sig (Elt F)) (c : Dev nD) :
    (rd2 (F := F) W c).BodyObligation (defs₀ (F := F)) Variants.none () Set.univ := fun t Y _ => by
  rw [bigSep_W2, bigSep_W2]
  show _ ⊢ wp frame (wpE (defs₀ (F := F)) Variants.none c none) Set.univ (bodyAt2 t) _
  rw [show (rd2 (F := F) W c).Φ t.succ = (rd2 (F := F) W c).Φ t.castSucc from rfl,
    show (rd2 (F := F) W c).owesAt () t.succ = (rd2 (F := F) W c).owesAt () t.castSucc from rfl]
  iintro ⟨HΦ, Ho, H0, H1, H2, H3, H4⟩
  iapply (sound_kernel2 (F := F) c Set.univ _ _ _ _ _ _ _ _ _ _ _ _)
  isplitl [H0]; · iapply (anyAt_of_owns (F := F) c _); iexists _; iexact H0
  isplitl [H1]; · iapply (anyAt_of_owns (F := F) c _); iexists _; iexact H1
  isplitl [H2]; · iapply (anyAt_of_owns (F := F) c _); iexists _; iexact H2
  isplitl [H3]; · iapply (anyAt_of_owns (F := F) c _); iexists _; iexact H3
  isplitl [H4]; · iapply (anyAt_of_owns (F := F) c _); iexists _; iexact H4
  iintro ⟨H0, H1, H2, H3, H4⟩
  isplitl [HΦ]; · iexact HΦ
  isplitl [Ho]; · iexact Ho
  isplitl [H0]
  · ihave H := (owns_of_anyAt (F := F) c _) $$ H0; icases H with ⟨%X, H⟩; iexists X; isplitr; · ipureintro; trivial
    iexact H
  isplitl [H1]
  · ihave H := (owns_of_anyAt (F := F) c _) $$ H1; icases H with ⟨%X, H⟩; iexists X; isplitr; · ipureintro; trivial
    iexact H
  isplitl [H2]
  · ihave H := (owns_of_anyAt (F := F) c _) $$ H2; icases H with ⟨%X, H⟩; iexists X; isplitr; · ipureintro; trivial
    iexact H
  isplitl [H3]
  · ihave H := (owns_of_anyAt (F := F) c _) $$ H3; icases H with ⟨%X, H⟩; iexists X; isplitr; · ipureintro; trivial
    iexact H
  · ihave H := (owns_of_anyAt (F := F) c _) $$ H4; icases H with ⟨%X, H⟩; iexists X; isplitr; · ipureintro; trivial
    iexact H

/-! ## The proof data family, at the contents `W` a region is entered at -/

/-- Every pipeline's proof data at one valuation — a literal `match`, so that the family at a numeral reduces to the
    printed configuration. Each region's record reads its own pipeline's at the contents that region is entered at. -/
def fam (W : Valuation τ sig (Elt F)) : (p : Fin 3) → (c : Dev nD) → RDat τ (Elt F) Unit ℕ UU ℕ (Pipeline.pin (pcfgs (F := F)) adm p) c
  | ⟨0, _⟩ => fun c => rd0 W c
  | ⟨1, _⟩ => fun c => rd1 W c
  | ⟨2, _⟩ => fun c => rd2 W c

end Cert.Kernel.Hand

end
-- ==== Proof.KernelFrameRegs.lean ====
/-
  The frame of the word-level program, each kernel region as a step between thread states: entered with every unscoped
  buffer at a valuation W, left with every unscoped buffer at SOME valuation that agrees with W on the three argument
  arrays. An input array is never written, so the first kernel's input array, the second argument, ends as it began;
  the other two arguments are no window's array of any kernel, and no kernel's write-backs reach them.
-/
import proofs.«145953_j44349832298614_2_alg».proof.Proof.KernelFrameDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! ## Region 0 as a step between thread states -/

set_option backward.isDefEq.respectTransparency.types false in
/-- Region 0 entered with every unscoped buffer at `W`: left with every unscoped buffer at SOME contents that agree with
    `W` on the three argument arrays. Its arrays are split out of the unscoped buffers and put back at what the
    write-backs may have left; the generator register goes into the invariant and comes out; nothing is owed. -/
def reg0 (W : Valuation τ sig (Elt F)) : Pipeline.RDat.RegionSeg (pcfgs (F := F)) adm (fam W) () defs₀ 𝒱₀ L lv 0 where
  win := launch0.win.to₀
  block_pos := launch0.block_pos
  stage_whole := launch0.stage_whole
  K := PEmpty
  osem k := k.elim
  ho := Pipeline.OwnSemFacts.none _
  hbody c := body_obligation0 W c
  hwaits := Pipeline.RDat.hwaits_of_owed_zero _ _ _ _ L lv 0 fun _ _ => rfl
  pre c := iprop(StableHlo.held (c : Thread nD τ) (Pipeline.ucRefs τ sig) W ∗ R c)
  post c := iprop(∃ W' : Valuation τ sig (Elt F), ⌜Keeps W W'⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UU) (Lvl := ℕ) spec0 c (Vof W c)
  hentry c := by
    rw [Pipeline.ownSems0_none]
    have hsplit := Pipeline.RDat.arrays_of_unscopedBufs (p := 0) (pcfgs (F := F)) adm (fam W) launch0.win launch0.arr_whole c
      ((fam W 0 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (fam W 0 c).Φ 0 = Pipeline.ΦA spec0 c from rfl]; unfold Pipeline.ΦA
    iintro ⟨Hp, -, Hr⟩
    isplitl [Hr]; · iexact Hr
    iexact Hp
  hout c := by
    rw [Pipeline.ownSems0_none, show (fam W 0 c).Φ (Fin.last _) = Pipeline.ΦA spec0 c from rfl]; unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    -- the contents the write-backs may have left, named window by window
    ihave Ha' := (BI.bigSep_exists_pi Finset.univ (fun w G => iprop(⌜(fam (F := F) W 0 c).ArrAt w cfg0.N G⌝
        ∗ (cfg0.win w).arr.view.loc (c : Thread nD τ) ↦[(cfg0.win w).arr.view.set]{(fam (F := F) W 0 c).share w} G))) $$ Ha
    icases Ha' with ⟨%Fs, Ha⟩
    ihave Ha2 := (BI.bigSep_pure_sep Finset.univ (fun w => (fam (F := F) W 0 c).ArrAt w cfg0.N (Fs w))
        (fun w => (cfg0.win w).arr.view.loc (c : Thread nD τ) ↦[(cfg0.win w).arr.view.set]{(fam (F := F) W 0 c).share w} Fs w)) $$ Ha
    icases Ha2 with ⟨%hFs, Ha⟩
    have hjoin := unscopedBufs_of_arraysR (F := F) (fam W) (p := 0) launch0.win launch0.arr_whole c
      ((fam W 0 c).share_full fun _ => rfl) (Vof W c) (Vof (Pipeline.withArrays spec0 c W Fs) c) Fs
      (fun w => (Pipeline.withArrays_arr spec0 launch0.win.arr_inj c W Fs w).symm)
      (fun b hb => Pipeline.withArrays_of_ne spec0 c W Fs b fun w e => hb (Finset.mem_image.mpr ⟨w, Finset.mem_univ _, e⟩))
    rw [Pipeline.unscopedBufs_held] at hjoin
    imodintro
    iexists (Pipeline.withArrays spec0 c W Fs)
    isplitr
    · ipureintro
      refine ⟨?_, ?_, ?_⟩
      · exact Pipeline.withArrays_of_ne spec0 c W Fs main_arg0 (by decide)
      · refine (Pipeline.withArrays_arr spec0 launch0.win.arr_inj c W Fs 0).trans ?_
        have h0 := hFs 0 (Finset.mem_univ _)
        rw [(fam (F := F) W 0 c).ArrAt_in 0 rfl] at h0
        exact h0
      · exact Pipeline.withArrays_of_ne spec0 c W Fs main_arg2 (by decide)
    isplitl [Ha Hrest]
    · iapply hjoin
      isplitl [Ha]
      · unfold Pipeline.RDat.arrays; iexact Ha
      iexact Hrest
    isplitl [HY]; · iexact HY
    unfold Pipeline.RDat.owesAt Pipeline.owesWithin
    icases HO with ⟨%Wt, -, HO⟩; iexists Wt; iexact HO

/-! ## Region 1 as a step between thread states -/

set_option backward.isDefEq.respectTransparency.types false in
/-- Region 1 entered with every unscoped buffer at `W`: left with every unscoped buffer at SOME contents that agree with
    `W` on the three argument arrays. Its arrays are split out of the unscoped buffers and put back at what the
    write-backs may have left; the generator register goes into the invariant and comes out; nothing is owed. -/
def reg1 (W : Valuation τ sig (Elt F)) : Pipeline.RDat.RegionSeg (pcfgs (F := F)) adm (fam W) () defs₀ 𝒱₀ L lv 1 where
  win := launch1.win.to₀
  block_pos := launch1.block_pos
  stage_whole := launch1.stage_whole
  K := PEmpty
  osem k := k.elim
  ho := Pipeline.OwnSemFacts.none _
  hbody c := body_obligation1 W c
  hwaits := Pipeline.RDat.hwaits_of_owed_zero _ _ _ _ L lv 1 fun _ _ => rfl
  pre c := iprop(StableHlo.held (c : Thread nD τ) (Pipeline.ucRefs τ sig) W ∗ R c)
  post c := iprop(∃ W' : Valuation τ sig (Elt F), ⌜Keeps W W'⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UU) (Lvl := ℕ) spec1 c (Vof W c)
  hentry c := by
    rw [Pipeline.ownSems0_none]
    have hsplit := Pipeline.RDat.arrays_of_unscopedBufs (p := 1) (pcfgs (F := F)) adm (fam W) launch1.win launch1.arr_whole c
      ((fam W 1 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (fam W 1 c).Φ 0 = Pipeline.ΦA spec1 c from rfl]; unfold Pipeline.ΦA
    iintro ⟨Hp, -, Hr⟩
    isplitl [Hr]; · iexact Hr
    iexact Hp
  hout c := by
    rw [Pipeline.ownSems0_none, show (fam W 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    -- the contents the write-backs may have left, named window by window
    ihave Ha' := (BI.bigSep_exists_pi Finset.univ (fun w G => iprop(⌜(fam (F := F) W 1 c).ArrAt w cfg1.N G⌝
        ∗ (cfg1.win w).arr.view.loc (c : Thread nD τ) ↦[(cfg1.win w).arr.view.set]{(fam (F := F) W 1 c).share w} G))) $$ Ha
    icases Ha' with ⟨%Fs, Ha⟩
    ihave Ha2 := (BI.bigSep_pure_sep Finset.univ (fun w => (fam (F := F) W 1 c).ArrAt w cfg1.N (Fs w))
        (fun w => (cfg1.win w).arr.view.loc (c : Thread nD τ) ↦[(cfg1.win w).arr.view.set]{(fam (F := F) W 1 c).share w} Fs w)) $$ Ha
    icases Ha2 with ⟨%hFs, Ha⟩
    have hjoin := unscopedBufs_of_arraysR (F := F) (fam W) (p := 1) launch1.win launch1.arr_whole c
      ((fam W 1 c).share_full fun _ => rfl) (Vof W c) (Vof (Pipeline.withArrays spec1 c W Fs) c) Fs
      (fun w => (Pipeline.withArrays_arr spec1 launch1.win.arr_inj c W Fs w).symm)
      (fun b hb => Pipeline.withArrays_of_ne spec1 c W Fs b fun w e => hb (Finset.mem_image.mpr ⟨w, Finset.mem_univ _, e⟩))
    rw [Pipeline.unscopedBufs_held] at hjoin
    imodintro
    iexists (Pipeline.withArrays spec1 c W Fs)
    isplitr
    · ipureintro
      exact ⟨Pipeline.withArrays_of_ne spec1 c W Fs main_arg0 (by decide), Pipeline.withArrays_of_ne spec1 c W Fs main_arg1 (by decide),
        Pipeline.withArrays_of_ne spec1 c W Fs main_arg2 (by decide)⟩
    isplitl [Ha Hrest]
    · iapply hjoin
      isplitl [Ha]
      · unfold Pipeline.RDat.arrays; iexact Ha
      iexact Hrest
    isplitl [HY]; · iexact HY
    unfold Pipeline.RDat.owesAt Pipeline.owesWithin
    icases HO with ⟨%Wt, -, HO⟩; iexists Wt; iexact HO

/-! ## Region 2 as a step between thread states -/

set_option backward.isDefEq.respectTransparency.types false in
/-- Region 2 entered with every unscoped buffer at `W`: left with every unscoped buffer at SOME contents that agree with
    `W` on the three argument arrays. Its arrays are split out of the unscoped buffers and put back at what the
    write-backs may have left; the generator register goes into the invariant and comes out; nothing is owed. -/
def reg2 (W : Valuation τ sig (Elt F)) : Pipeline.RDat.RegionSeg (pcfgs (F := F)) adm (fam W) () defs₀ 𝒱₀ L lv 2 where
  win := launch2.win.to₀
  block_pos := launch2.block_pos
  stage_whole := launch2.stage_whole
  K := PEmpty
  osem k := k.elim
  ho := Pipeline.OwnSemFacts.none _
  hbody c := body_obligation2 W c
  hwaits := Pipeline.RDat.hwaits_of_owed_zero _ _ _ _ L lv 2 fun _ _ => rfl
  pre c := iprop(StableHlo.held (c : Thread nD τ) (Pipeline.ucRefs τ sig) W ∗ R c)
  post c := iprop(∃ W' : Valuation τ sig (Elt F), ⌜Keeps W W'⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UU) (Lvl := ℕ) spec2 c (Vof W c)
  hentry c := by
    rw [Pipeline.ownSems0_none]
    have hsplit := Pipeline.RDat.arrays_of_unscopedBufs (p := 2) (pcfgs (F := F)) adm (fam W) launch2.win launch2.arr_whole c
      ((fam W 2 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (fam W 2 c).Φ 0 = Pipeline.ΦA spec2 c from rfl]; unfold Pipeline.ΦA
    iintro ⟨Hp, -, Hr⟩
    isplitl [Hr]; · iexact Hr
    iexact Hp
  hout c := by
    rw [Pipeline.ownSems0_none, show (fam W 2 c).Φ (Fin.last _) = Pipeline.ΦA spec2 c from rfl]; unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    -- the contents the write-backs may have left, named window by window
    ihave Ha' := (BI.bigSep_exists_pi Finset.univ (fun w G => iprop(⌜(fam (F := F) W 2 c).ArrAt w cfg2.N G⌝
        ∗ (cfg2.win w).arr.view.loc (c : Thread nD τ) ↦[(cfg2.win w).arr.view.set]{(fam (F := F) W 2 c).share w} G))) $$ Ha
    icases Ha' with ⟨%Fs, Ha⟩
    ihave Ha2 := (BI.bigSep_pure_sep Finset.univ (fun w => (fam (F := F) W 2 c).ArrAt w cfg2.N (Fs w))
        (fun w => (cfg2.win w).arr.view.loc (c : Thread nD τ) ↦[(cfg2.win w).arr.view.set]{(fam (F := F) W 2 c).share w} Fs w)) $$ Ha
    icases Ha2 with ⟨%hFs, Ha⟩
    have hjoin := unscopedBufs_of_arraysR (F := F) (fam W) (p := 2) launch2.win launch2.arr_whole c
      ((fam W 2 c).share_full fun _ => rfl) (Vof W c) (Vof (Pipeline.withArrays spec2 c W Fs) c) Fs
      (fun w => (Pipeline.withArrays_arr spec2 launch2.win.arr_inj c W Fs w).symm)
      (fun b hb => Pipeline.withArrays_of_ne spec2 c W Fs b fun w e => hb (Finset.mem_image.mpr ⟨w, Finset.mem_univ _, e⟩))
    rw [Pipeline.unscopedBufs_held] at hjoin
    imodintro
    iexists (Pipeline.withArrays spec2 c W Fs)
    isplitr
    · ipureintro
      exact ⟨Pipeline.withArrays_of_ne spec2 c W Fs main_arg0 (by decide), Pipeline.withArrays_of_ne spec2 c W Fs main_arg1 (by decide),
        Pipeline.withArrays_of_ne spec2 c W Fs main_arg2 (by decide)⟩
    isplitl [Ha Hrest]
    · iapply hjoin
      isplitl [Ha]
      · unfold Pipeline.RDat.arrays; iexact Ha
      iexact Hrest
    isplitl [HY]; · iexact HY
    unfold Pipeline.RDat.owesAt Pipeline.owesWithin
    icases HO with ⟨%Wt, -, HO⟩; iexists Wt; iexact HO

end Cert.Kernel.Hand

end
-- ==== Proof.KernelFrameSteps.lean ====
/-
  The frame of the word-level program, its six items (kernel, host reshape, kernel, two host reshapes, kernel, host
  reshape) run one after the other in continuation-passing form. Between two items the core holds every unscoped
  buffer at some valuation that agrees with the launch memory on the three argument arrays, the generator register at
  some state, and owes nothing. The valuation is chosen anew after each kernel, since what a kernel wrote is not named:
  each kernel is entered at proof data stated over the valuation just obtained, and each is funded from its own
  pipeline's share of a second copy of the rounds algebra's launch element.
-/
import proofs.«145953_j44349832298614_2_alg».proof.Proof.KernelFrameRegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! # The run: the six items of the program, one after the other, from any launch memory -/

/-- Pipeline `p`'s ghost state on core `c` (its staging cells' and its duty tokens'), in the second copy of the rounds
    algebra: what a region's entry is funded from. -/
def gh (p : Fin 3) (c : Dev nD) : sProp 𝕄 :=
  iprop(Pipeline.cellsGhost (Pipeline.pin (pcfgs (F := F)) adm) (embR : Emb (UR sig nD τ) 𝕄) p c
    ∗ Pipeline.toksInit (Pipeline.pin (pcfgs (F := F)) adm) (embR : Emb (UR sig nD τ) 𝕄) p c)

set_option backward.isDefEq.respectTransparency.types false in
/-- Region 0 as a step: entered with the unscoped buffers at `W`, it hands its continuation the unscoped buffers at some
    contents that agree with `W` on the argument arrays; `Kont` rides along untouched. -/
theorem step_reg0 (W : Valuation τ sig (Elt F)) (c : Dev nD) {β : Type} (k : PUnit.{1} → Prog (TpuEff nD τ sig (Elt F) (Pipeline.Sig Λ₀ (Fin 3) fun p => (pcfgs (F := F) p).Adm) .tc) β) (Q : β → sProp 𝕄) (Kont : sProp 𝕄)
    (hk : ∀ W' : Valuation τ sig (Elt F), Keeps W W' →
      iprop(Kont ∗ boundary (c.tc : Thread nD τ) ∗ StableHlo.held (c.tc : Thread nD τ) (Pipeline.ucRefs τ sig) W' ∗ R c) ⊢ wp _root_.Idealize.ShloMosaic.frame (wpE (Pipeline.defs (pcfgs (F := F)) (defs₀ (F := F))) (Variants.lift 𝒱₀) (c.tc : Thread nD τ) none) Set.univ (k ⟨⟩) Q) :
    iprop(Kont ∗ boundary (c.tc : Thread nD τ) ∗ StableHlo.held (c.tc : Thread nD τ) (Pipeline.ucRefs τ sig) W ∗ R c ∗ levAts L lv ∗ gh (F := F) 0 c)
      ⊢ wp _root_.Idealize.ShloMosaic.frame (wpE (Pipeline.defs (pcfgs (F := F)) (defs₀ (F := F))) (Variants.lift 𝒱₀) (c.tc : Thread nD τ) none) Set.univ (.op (.customCall (Pipeline.entry 0) ()) k) Q := by
  have hwp := Pipeline.RDat.RegionSeg.wp (pcfgs (F := F)) adm (fam W) () cellOf_inj (embR : Emb (UR sig nD τ) 𝕄) defs₀ 𝒱₀ L lv (reg0 W) c none
    (fun u h => nomatch h) k Q
  unfold gh
  iintro ⟨HK, Hbd, Hh, HR, #Hla, Hg, Ht⟩
  iapply hwp
  isplitl [HK]
  · iintro ⟨Hbd, Hpost⟩
    ihave Hpost' := (show (reg0 (F := F) W).post c ⊢ (iprop(∃ W' : Valuation τ sig (Elt F), ⌜Keeps W W'⌝ ∗ StableHlo.held (c.tc : Thread nD τ) (Pipeline.ucRefs τ sig) W' ∗ R c) : sProp 𝕄) from .rfl) $$ Hpost
    icases Hpost' with ⟨%W', %hW', Hh, HR⟩
    iapply (hk W' hW')
    isplitl [HK]; · iexact HK
    isplitl [Hbd]; · iexact Hbd
    isplitl [Hh]; · iexact Hh
    iexact HR
  · isplitl [Hbd]; · iexact Hbd
    isplitl [Hh HR]
    · iapply (show (iprop(StableHlo.held (c.tc : Thread nD τ) (Pipeline.ucRefs τ sig) W ∗ R c) : sProp 𝕄) ⊢ (reg0 (F := F) W).pre c from .rfl)
      isplitl [Hh]; · iexact Hh
      iexact HR
    isplitr; · iexact Hla
    isplitl [Hg]; · iexact Hg
    iexact Ht

set_option backward.isDefEq.respectTransparency.types false in
/-- Region 1 as a step: entered with the unscoped buffers at `W`, it hands its continuation the unscoped buffers at some
    contents that agree with `W` on the argument arrays; `Kont` rides along untouched. -/
theorem step_reg1 (W : Valuation τ sig (Elt F)) (c : Dev nD) {β : Type} (k : PUnit.{1} → Prog (TpuEff nD τ sig (Elt F) (Pipeline.Sig Λ₀ (Fin 3) fun p => (pcfgs (F := F) p).Adm) .tc) β) (Q : β → sProp 𝕄) (Kont : sProp 𝕄)
    (hk : ∀ W' : Valuation τ sig (Elt F), Keeps W W' →
      iprop(Kont ∗ boundary (c.tc : Thread nD τ) ∗ StableHlo.held (c.tc : Thread nD τ) (Pipeline.ucRefs τ sig) W' ∗ R c) ⊢ wp _root_.Idealize.ShloMosaic.frame (wpE (Pipeline.defs (pcfgs (F := F)) (defs₀ (F := F))) (Variants.lift 𝒱₀) (c.tc : Thread nD τ) none) Set.univ (k ⟨⟩) Q) :
    iprop(Kont ∗ boundary (c.tc : Thread nD τ) ∗ StableHlo.held (c.tc : Thread nD τ) (Pipeline.ucRefs τ sig) W ∗ R c ∗ levAts L lv ∗ gh (F := F) 1 c)
      ⊢ wp _root_.Idealize.ShloMosaic.frame (wpE (Pipeline.defs (pcfgs (F := F)) (defs₀ (F := F))) (Variants.lift 𝒱₀) (c.tc : Thread nD τ) none) Set.univ (.op (.customCall (Pipeline.entry 1) ()) k) Q := by
  have hwp := Pipeline.RDat.RegionSeg.wp (pcfgs (F := F)) adm (fam W) () cellOf_inj (embR : Emb (UR sig nD τ) 𝕄) defs₀ 𝒱₀ L lv (reg1 W) c none
    (fun u h => nomatch h) k Q
  unfold gh
  iintro ⟨HK, Hbd, Hh, HR, #Hla, Hg, Ht⟩
  iapply hwp
  isplitl [HK]
  · iintro ⟨Hbd, Hpost⟩
    ihave Hpost' := (show (reg1 (F := F) W).post c ⊢ (iprop(∃ W' : Valuation τ sig (Elt F), ⌜Keeps W W'⌝ ∗ StableHlo.held (c.tc : Thread nD τ) (Pipeline.ucRefs τ sig) W' ∗ R c) : sProp 𝕄) from .rfl) $$ Hpost
    icases Hpost' with ⟨%W', %hW', Hh, HR⟩
    iapply (hk W' hW')
    isplitl [HK]; · iexact HK
    isplitl [Hbd]; · iexact Hbd
    isplitl [Hh]; · iexact Hh
    iexact HR
  · isplitl [Hbd]; · iexact Hbd
    isplitl [Hh HR]
    · iapply (show (iprop(StableHlo.held (c.tc : Thread nD τ) (Pipeline.ucRefs τ sig) W ∗ R c) : sProp 𝕄) ⊢ (reg1 (F := F) W).pre c from .rfl)
      isplitl [Hh]; · iexact Hh
      iexact HR
    isplitr; · iexact Hla
    isplitl [Hg]; · iexact Hg
    iexact Ht

set_option backward.isDefEq.respectTransparency.types false in
/-- Region 2 as a step: entered with the unscoped buffers at `W`, it hands its continuation the unscoped buffers at some
    contents that agree with `W` on the argument arrays; `Kont` rides along untouched. -/
theorem step_reg2 (W : Valuation τ sig (Elt F)) (c : Dev nD) {β : Type} (k : PUnit.{1} → Prog (TpuEff nD τ sig (Elt F) (Pipeline.Sig Λ₀ (Fin 3) fun p => (pcfgs (F := F) p).Adm) .tc) β) (Q : β → sProp 𝕄) (Kont : sProp 𝕄)
    (hk : ∀ W' : Valuation τ sig (Elt F), Keeps W W' →
      iprop(Kont ∗ boundary (c.tc : Thread nD τ) ∗ StableHlo.held (c.tc : Thread nD τ) (Pipeline.ucRefs τ sig) W' ∗ R c) ⊢ wp _root_.Idealize.ShloMosaic.frame (wpE (Pipeline.defs (pcfgs (F := F)) (defs₀ (F := F))) (Variants.lift 𝒱₀) (c.tc : Thread nD τ) none) Set.univ (k ⟨⟩) Q) :
    iprop(Kont ∗ boundary (c.tc : Thread nD τ) ∗ StableHlo.held (c.tc : Thread nD τ) (Pipeline.ucRefs τ sig) W ∗ R c ∗ levAts L lv ∗ gh (F := F) 2 c)
      ⊢ wp _root_.Idealize.ShloMosaic.frame (wpE (Pipeline.defs (pcfgs (F := F)) (defs₀ (F := F))) (Variants.lift 𝒱₀) (c.tc : Thread nD τ) none) Set.univ (.op (.customCall (Pipeline.entry 2) ()) k) Q := by
  have hwp := Pipeline.RDat.RegionSeg.wp (pcfgs (F := F)) adm (fam W) () cellOf_inj (embR : Emb (UR sig nD τ) 𝕄) defs₀ 𝒱₀ L lv (reg2 W) c none
    (fun u h => nomatch h) k Q
  unfold gh
  iintro ⟨HK, Hbd, Hh, HR, #Hla, Hg, Ht⟩
  iapply hwp
  isplitl [HK]
  · iintro ⟨Hbd, Hpost⟩
    ihave Hpost' := (show (reg2 (F := F) W).post c ⊢ (iprop(∃ W' : Valuation τ sig (Elt F), ⌜Keeps W W'⌝ ∗ StableHlo.held (c.tc : Thread nD τ) (Pipeline.ucRefs τ sig) W' ∗ R c) : sProp 𝕄) from .rfl) $$ Hpost
    icases Hpost' with ⟨%W', %hW', Hh, HR⟩
    iapply (hk W' hW')
    isplitl [HK]; · iexact HK
    isplitl [Hbd]; · iexact Hbd
    isplitl [Hh]; · iexact Hh
    iexact HR
  · isplitl [Hbd]; · iexact Hbd
    isplitl [Hh HR]
    · iapply (show (iprop(StableHlo.held (c.tc : Thread nD τ) (Pipeline.ucRefs τ sig) W ∗ R c) : sProp 𝕄) ⊢ (reg2 (F := F) W).pre c from .rfl)
      isplitl [Hh]; · iexact Hh
      iexact HR
    isplitr; · iexact Hla
    isplitl [Hg]; · iexact Hg
    iexact Ht

set_option backward.isDefEq.respectTransparency.types false in
/-- A stretch of host operations that writes no argument array as a step: from the unscoped buffers at `W` to the
    unscoped buffers at contents that agree with `W` on the argument arrays. -/
theorem step_host (ops : List (HloOp τ sig (Elt F))) (hsub : ops.Forall fun op => op.bufs ⊆ StableHlo.tcRefs τ sig)
    (hfresh : ops.Forall fun op => op.fresh = ∅) (Wl : List (Ref sig .tc))
    (hwr : ops.Forall fun op => op.writes ⊆ (Wl.map (Proc.devRef (τ := τ) .tc)).toFinset)
    (h0 : main_arg0 ∉ Wl) (h1 : main_arg1 ∉ Wl) (h2 : main_arg2 ∉ Wl)
    (W : Valuation τ sig (Elt F)) (c : Dev nD) {β : Type} (k : PUnit.{1} → Prog (TpuEff nD τ sig (Elt F) (Pipeline.Sig Λ₀ (Fin 3) fun p => (pcfgs (F := F) p).Adm) .tc) β) (Q : β → sProp 𝕄) (Kont : sProp 𝕄)
    (hk : ∀ W' : Valuation τ sig (Elt F), Keeps W W' →
      iprop(Kont ∗ boundary (c.tc : Thread nD τ) ∗ StableHlo.held (c.tc : Thread nD τ) (Pipeline.ucRefs τ sig) W' ∗ R c) ⊢ wp _root_.Idealize.ShloMosaic.frame (wpE (Pipeline.defs (pcfgs (F := F)) (defs₀ (F := F))) (Variants.lift 𝒱₀) (c.tc : Thread nD τ) none) Set.univ (k ⟨⟩) Q) :
    iprop(Kont ∗ boundary (c.tc : Thread nD τ) ∗ StableHlo.held (c.tc : Thread nD τ) (Pipeline.ucRefs τ sig) W ∗ R c ∗ levAts L lv)
      ⊢ wp _root_.Idealize.ShloMosaic.frame (wpE (Pipeline.defs (pcfgs (F := F)) (defs₀ (F := F))) (Variants.lift 𝒱₀) (c.tc : Thread nD τ) none) Set.univ (StableHlo.seq ops >>= k) Q := by
  have hrun : iprop((iprop(boundary (c.tc : Thread nD τ) ∗ StableHlo.held (c.tc : Thread nD τ) (Pipeline.ucRefs τ sig) (StableHlo.after ops W) ∗ R c) -∗ wp _root_.Idealize.ShloMosaic.frame (wpE (Pipeline.defs (pcfgs (F := F)) (defs₀ (F := F))) (Variants.lift 𝒱₀) (c.tc : Thread nD τ) none) Set.univ (k ⟨⟩) Q)
        ∗ boundary (c.tc : Thread nD τ) ∗ iprop(StableHlo.held (c.tc : Thread nD τ) (Pipeline.ucRefs τ sig) W ∗ R c) ∗ levAts L lv)
      ⊢ wp _root_.Idealize.ShloMosaic.frame (wpE (Pipeline.defs (pcfgs (F := F)) (defs₀ (F := F))) (Variants.lift 𝒱₀) (c.tc : Thread nD τ) none) Set.univ (StableHlo.seq ops >>= k) Q :=
    (Pipeline.HostSeg.ofOps (Name := ℕ) (U := UU) (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => W) R).run c k Q
  iintro ⟨HK, Hbd, Hh, HR, #Hla⟩
  iapply hrun
  isplitl [HK]
  · iintro ⟨Hbd, Hh, HR⟩
    iapply (hk (StableHlo.after ops W) ⟨StableHlo.after_of_writes_sub ops W hwr h0, StableHlo.after_of_writes_sub ops W hwr h1,
      StableHlo.after_of_writes_sub ops W hwr h2⟩)
    isplitl [HK]; · iexact HK
    isplitl [Hbd]; · iexact Hbd
    isplitl [Hh]; · iexact Hh
    iexact HR
  · isplitl [Hbd]; · iexact Hbd
    isplitl [Hh HR]
    · isplitl [Hh]; · iexact Hh
      iexact HR
    iexact Hla

/-! ## The thread state and the continuations, from the last item back to the first -/

/-- The thread state without what the core owes: every unscoped buffer at SOME contents that have the three argument
    arrays as launched, and the generator register at some state. -/
def Tn (m : (ℓ : Loc nD τ sig) → Buf (Elt F) ℓ) (c : Dev nD) : sProp 𝕄 :=
  iprop(∃ W : Valuation τ sig (Elt F), ⌜Keeps (V0 m c) W⌝ ∗ StableHlo.held (c.tc : Thread nD τ) (Pipeline.ucRefs τ sig) W ∗ ∃ r, prngReg c r)

/-- What the caller of the whole program continues from. -/
def HKp (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) : sProp 𝕄 :=
  iprop(iprop(boundary (c.tc : Thread nD τ) ∗ Tn m c ∗ iprop(∃ Wt, owes (c.tc : Thread nD τ) (0 : CellTallies nD τ sig Unit) Wt)) -∗ wp _root_.Idealize.ShloMosaic.frame (wpE (Pipeline.defs (pcfgs (F := F)) (defs₀ (F := F))) (Variants.lift 𝒱₀) (c.tc : Thread nD τ) none) Set.univ (k ⟨⟩) K)

/-- After the last item: the caller's continuation. -/
theorem run6 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(HKp m c k K ∗ boundary (c.tc : Thread nD τ) ∗ StableHlo.held (c.tc : Thread nD τ) (Pipeline.ucRefs τ sig) W ∗ R c) ⊢ wp _root_.Idealize.ShloMosaic.frame (wpE (Pipeline.defs (pcfgs (F := F)) (defs₀ (F := F))) (Variants.lift 𝒱₀) (c.tc : Thread nD τ) none) Set.univ (k ⟨⟩) K := by
  unfold HKp Tn
  iintro ⟨Hk, Hbd, Hh, ⟨Hp, HO⟩⟩
  iapply Hk
  isplitl [Hbd]; · iexact Hbd
  isplitl [Hh Hp]
  · iexists W; isplitr; · ipureintro; exact hW
    isplitl [Hh]; · iexact Hh
    iexact Hp
  iexact HO

/-- The last host stretch, then the caller. -/
theorem run5 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (StableHlo.seq hostOps3 >>= k) K := by
  iintro ⟨⟨Hk, #Hla⟩, Hbd, Hh, HR⟩
  iapply (step_host (F := F) hostOps3 hostOps3_sub hostOps3_fresh hostOps3_W hostOps3_writes (by decide) (by decide) (by decide) W c k K
    (HKp m c k K) fun W' h' => run6 m c k K W' (hW.trans h'))
  isplitl [Hk]; · iexact Hk
  isplitl [Hbd]; · iexact Hbd
  isplitl [Hh]; · iexact Hh
  isplitl [HR]; · iexact HR
  iexact Hla

/-- Region 2, the last host stretch, then the caller. -/
theorem run4 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv ∗ gh (F := F) 2 c) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (.op (.customCall (Pipeline.entry 2) ()) fun _ => StableHlo.seq hostOps3 >>= k) K := by
  iintro ⟨⟨Hk, #Hla, Hg⟩, Hbd, Hh, HR⟩
  iapply (step_reg2 (F := F) W c (fun _ => StableHlo.seq hostOps3 >>= k) K iprop(HKp m c k K ∗ levAts L lv)
    fun W' h' => run5 m c k K W' (hW.trans h'))
  isplitl [Hk]
  · isplitl [Hk]; · iexact Hk
    iexact Hla
  isplitl [Hbd]; · iexact Hbd
  isplitl [Hh]; · iexact Hh
  isplitl [HR]; · iexact HR
  isplitr; · iexact Hla
  iexact Hg

/-- The second host stretch, region 2, the last host stretch, then the caller. -/
theorem run3 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv ∗ gh (F := F) 2 c) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (StableHlo.seq hostOps2 >>= fun _ => .op (.customCall (Pipeline.entry 2) ()) fun _ => StableHlo.seq hostOps3 >>= k) K := by
  iintro ⟨⟨Hk, #Hla, Hg⟩, Hbd, Hh, HR⟩
  iapply (step_host (F := F) hostOps2 hostOps2_sub hostOps2_fresh hostOps2_W hostOps2_writes (by decide) (by decide) (by decide) W c
    (fun _ => .op (.customCall (Pipeline.entry 2) ()) fun _ => StableHlo.seq hostOps3 >>= k) K
    iprop(HKp m c k K ∗ levAts L lv ∗ gh (F := F) 2 c) fun W' h' => run4 m c k K W' (hW.trans h'))
  isplitl [Hk Hg]
  · isplitl [Hk]; · iexact Hk
    isplitr; · iexact Hla
    iexact Hg
  isplitl [Hbd]; · iexact Hbd
  isplitl [Hh]; · iexact Hh
  isplitl [HR]; · iexact HR
  iexact Hla

/-- Region 1 and everything after it. -/
theorem run2 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv ∗ gh (F := F) 2 c ∗ gh (F := F) 1 c) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (.op (.customCall (Pipeline.entry 1) ()) fun _ => StableHlo.seq hostOps2 >>= fun _ => .op (.customCall (Pipeline.entry 2) ()) fun _ => StableHlo.seq hostOps3 >>= k) K := by
  iintro ⟨⟨Hk, #Hla, Hg2, Hg1⟩, Hbd, Hh, HR⟩
  iapply (step_reg1 (F := F) W c
    (fun _ => StableHlo.seq hostOps2 >>= fun _ => .op (.customCall (Pipeline.entry 2) ()) fun _ => StableHlo.seq hostOps3 >>= k) K
    iprop(HKp m c k K ∗ levAts L lv ∗ gh (F := F) 2 c) fun W' h' => run3 m c k K W' (hW.trans h'))
  isplitl [Hk Hg2]
  · isplitl [Hk]; · iexact Hk
    isplitr; · iexact Hla
    iexact Hg2
  isplitl [Hbd]; · iexact Hbd
  isplitl [Hh]; · iexact Hh
  isplitl [HR]; · iexact HR
  isplitr; · iexact Hla
  iexact Hg1

/-- The first host stretch and everything after it. -/
theorem run1 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv ∗ gh (F := F) 2 c ∗ gh (F := F) 1 c) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (StableHlo.seq hostOps1 >>= fun _ => .op (.customCall (Pipeline.entry 1) ()) fun _ => StableHlo.seq hostOps2 >>= fun _ => .op (.customCall (Pipeline.entry 2) ()) fun _ => StableHlo.seq hostOps3 >>= k) K := by
  iintro ⟨⟨Hk, #Hla, Hg2, Hg1⟩, Hbd, Hh, HR⟩
  iapply (step_host (F := F) hostOps1 hostOps1_sub hostOps1_fresh hostOps1_W hostOps1_writes (by decide) (by decide) (by decide) W c
    (fun _ => .op (.customCall (Pipeline.entry 1) ()) fun _ => StableHlo.seq hostOps2 >>= fun _ => .op (.customCall (Pipeline.entry 2) ()) fun _ => StableHlo.seq hostOps3 >>= k) K
    iprop(HKp m c k K ∗ levAts L lv ∗ gh (F := F) 2 c ∗ gh (F := F) 1 c) fun W' h' => run2 m c k K W' (hW.trans h'))
  isplitl [Hk Hg2 Hg1]
  · isplitl [Hk]; · iexact Hk
    isplitr; · iexact Hla
    isplitl [Hg2]; · iexact Hg2
    iexact Hg1
  isplitl [Hbd]; · iexact Hbd
  isplitl [Hh]; · iexact Hh
  isplitl [HR]; · iexact HR
  iexact Hla

/-- The whole program: region 0 and everything after it. -/
theorem run0 (m : (ℓ : Loc nD τ sig) → Buf (Elt F) ℓ) (c : Dev nD) {β : Type} (k : PUnit.{1} → Prog (TpuEff nD τ sig (Elt F) (Pipeline.Sig Λ₀ (Fin 3) fun p => (pcfgs (F := F) p).Adm) .tc) β) (K : β → sProp 𝕄) (W : Valuation τ sig (Elt F)) (hW : Keeps (V0 m c) W) :
    iprop(iprop(HKp m c k K ∗ levAts L lv ∗ gh (F := F) 2 c ∗ gh (F := F) 1 c ∗ gh (F := F) 0 c) ∗ boundary (c.tc : Thread nD τ) ∗ StableHlo.held (c.tc : Thread nD τ) (Pipeline.ucRefs τ sig) W ∗ R c)
      ⊢ wp _root_.Idealize.ShloMosaic.frame (wpE (Pipeline.defs (pcfgs (F := F)) (defs₀ (F := F))) (Variants.lift 𝒱₀) (c.tc : Thread nD τ) none) Set.univ (.op (.customCall (Pipeline.entry 0) ()) fun _ => StableHlo.seq hostOps1 >>= fun _ => .op (.customCall (Pipeline.entry 1) ()) fun _ => StableHlo.seq hostOps2 >>= fun _ => .op (.customCall (Pipeline.entry 2) ()) fun _ => StableHlo.seq hostOps3 >>= k) K := by
  iintro ⟨⟨Hk, #Hla, Hg2, Hg1, Hg0⟩, Hbd, Hh, HR⟩
  iapply (step_reg0 (F := F) W c
    (fun _ => StableHlo.seq hostOps1 >>= fun _ => .op (.customCall (Pipeline.entry 1) ()) fun _ => StableHlo.seq hostOps2 >>= fun _ => .op (.customCall (Pipeline.entry 2) ()) fun _ => StableHlo.seq hostOps3 >>= k) K
    iprop(HKp m c k K ∗ levAts L lv ∗ gh (F := F) 2 c ∗ gh (F := F) 1 c) fun W' h' => run1 m c k K W' (hW.trans h'))
  isplitl [Hk Hg2 Hg1]
  · isplitl [Hk]; · iexact Hk
    isplitr; · iexact Hla
    isplitl [Hg2]; · iexact Hg2
    iexact Hg1
  isplitl [Hbd]; · iexact Hbd
  isplitl [Hh]; · iexact Hh
  isplitl [HR]; · iexact HR
  isplitr; · iexact Hla
  iexact Hg0

end Cert.Kernel.Hand

end
-- ==== Proof.KernelFrameRun.lean ====
/-
  The frame of the word-level program, the launch: the program is one segment whose specification is the composition of
  its six steps; the launch element is split over the two copies of the rounds algebra, the second funding each
  kernel's entry; at the end the three argument arrays are read off the last valuation, which agrees with the launch
  memory on them.
-/
import proofs.«145953_j44349832298614_2_alg».proof.Proof.KernelFrameSteps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ UU ℕ

/-! ## The program as ONE segment, and the launch -/

/-- The program's six items in order. -/
def progAll : Prog (TpuEff nD τ sig (Elt F) (Pipeline.Sig Λ₀ (Fin 3) fun p => (pcfgs (F := F) p).Adm) .tc) PUnit :=
  Pipeline.chain
    [ Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ]

theorem progAll_bind {β : Type} (k : PUnit.{1} → Prog (TpuEff nD τ sig (Elt F) (Pipeline.Sig Λ₀ (Fin 3) fun p => (pcfgs (F := F) p).Adm) .tc) β) :
    (progAll (F := F) >>= k) = (.op (.customCall (Pipeline.entry 0) ()) fun _ => StableHlo.seq hostOps1 >>= fun _ => .op (.customCall (Pipeline.entry 1) ()) fun _ => StableHlo.seq hostOps2 >>= fun _ => .op (.customCall (Pipeline.entry 2) ()) fun _ => StableHlo.seq hostOps3 >>= k) := by
  unfold progAll
  simp only [Pipeline.chain_cons, Pipeline.chain_nil, bind_assoc, Prog.bind_lift, Prog.bind_op, pure_bind]

/-- The first thread state: every unscoped buffer at some contents that have the argument arrays as launched, the
    generator register, nothing owed, and every pipeline's ghost state. -/
def Tpre (m : (ℓ : Loc nD τ sig) → Buf (Elt F) ℓ) (c : Dev nD) : sProp 𝕄 :=
  iprop((∃ W : Valuation τ sig (Elt F), ⌜Keeps (V0 m c) W⌝ ∗ StableHlo.held (c.tc : Thread nD τ) (Pipeline.ucRefs τ sig) W ∗ R c) ∗ gh (F := F) 0 c ∗ gh (F := F) 1 c ∗ gh (F := F) 2 c)

set_option backward.isDefEq.respectTransparency.types false in
/-- The whole program as one segment of the launch theorem: entered at the first thread state; left with every unscoped
    buffer at some contents that have the argument arrays as launched, the ghost state spent. -/
def hall (m : (ℓ : Loc nD τ sig) → Buf (Elt F) ℓ) : Pipeline.HostSeg (Name := ℕ) (U := UU) (pcfgs (F := F)) defs₀ 𝒱₀ L lv where
  prog := progAll
  pre c := Tpre m c
  post c := iprop(Tn m c ∗ iprop(∃ Wt, owes (c.tc : Thread nD τ) (0 : CellTallies nD τ sig Unit) Wt))
  run c {β} k K := by
    rw [progAll_bind]
    unfold Tpre
    iintro ⟨Hk, Hbd, ⟨⟨%W, %hW, Hh, HR⟩, Hg0, Hg1, Hg2⟩, #Hla⟩
    iapply (run0 (F := F) m c k K W hW)
    isplitl [Hk Hg0 Hg1 Hg2]
    · isplitl [Hk]; · unfold HKp; iexact Hk
      isplitr; · iexact Hla
      isplitl [Hg2]; · iexact Hg2
      isplitl [Hg1]; · iexact Hg1
      iexact Hg0
    isplitl [Hbd]; · iexact Hbd
    isplitl [Hh]; · iexact Hh
    iexact HR

set_option backward.isDefEq.respectTransparency.types false in
/-- The program is that one segment, run. -/
theorem run_hall_eq (m : (ℓ : Loc nD τ sig) → Buf (Elt F) ℓ) (c : Dev nD) :
    Pipeline.RDat.Seg.run ([.host (hall m)] : List (Pipeline.RDat.Seg (pcfgs (F := F)) adm (fam (V0 m 0)) () defs₀ 𝒱₀ L lv)) = main (F := F) c := by
  rw [main_chain c]
  show (progAll (F := F) >>= fun _ => (Prog.ret PUnit.unit : Prog (TpuEff nD τ sig (Elt F) (Pipeline.Sig Λ₀ (Fin 3) fun p => (pcfgs (F := F) p).Adm) .tc) PUnit)) = _
  rw [show (fun _ : PUnit.{1} => (Prog.ret PUnit.unit : Prog (TpuEff nD τ sig (Elt F) (Pipeline.Sig Λ₀ (Fin 3) fun p => (pcfgs (F := F) p).Adm) .tc) PUnit)) = Pure.pure from rfl, Prog.bind_pure]
  rfl

/-- The launch element of one copy of the rounds algebra: every pipeline's staging cells and duty tokens. -/
abbrev i₀ : UR sig nD τ := initOf (Pipeline.cells cfgs cellOf_inj) (Pipeline.launchToks cfgs cellOf_inj)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 1000000 in
set_option backward.isDefEq.respectTransparency.types false in
/-- THE FRAME of the word-level program, at any instance of the float operations: from any memory with zero counters,
    every weakly fair execution of the program on the TensorCores terminates, nothing faulting, and every final state has
    the three argument arrays as launched. Nothing is claimed of any other buffer. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (fam (V0 m 0)) () cellOf_inj (embL : Emb (UR sig nD τ) 𝕄) defs₀ 𝒱₀ L lv m ρ main
    [.host (hall m)]
    (fun c Q => by rw [run_hall_eq m c])
    (by simp only [Pipeline.RDat.Seg.pipes_host, Pipeline.RDat.Seg.pipes_nil]; exact List.nodup_nil)
    (O₀ := 0) (hL := fun _ _ => rfl)
    (G := fun c => bigSep Finset.univ fun p : Fin 3 => gh (F := F) p c)
    (u₀ := (i₀, i₀))
    (hu₀ := by
      have hghost : iprop((bigSep Finset.univ fun c : Dev nD => bigSep Finset.univ fun p : Fin 3 =>
              Pipeline.cellsGhost (Pipeline.pin (pcfgs (F := F)) adm) (embR : Emb (UR sig nD τ) 𝕄) p c)
            ∗ (bigSep Finset.univ fun c : Dev nD => bigSep Finset.univ fun p : Fin 3 =>
              (Pipeline.toksInit (Pipeline.pin (pcfgs (F := F)) adm) (embR : Emb (UR sig nD τ) 𝕄) p c : sProp 𝕄)))
          ⊢ bigSep Finset.univ fun c : Dev nD => bigSep Finset.univ fun p : Fin 3 => gh (F := F) p c := by
        rw [← bigSep_sep']
        exact bigSep_mono fun c _ => show iprop((bigSep Finset.univ fun p : Fin 3 =>
              Pipeline.cellsGhost (Pipeline.pin (pcfgs (F := F)) adm) (embR : Emb (UR sig nD τ) 𝕄) p c)
            ∗ bigSep Finset.univ fun p : Fin 3 =>
              (Pipeline.toksInit (Pipeline.pin (pcfgs (F := F)) adm) (embR : Emb (UR sig nD τ) 𝕄) p c : sProp 𝕄))
          ⊢ bigSep Finset.univ fun p : Fin 3 => gh (F := F) p c from Entails.of_eq (by unfold gh; rw [bigSep_sep'])
      iintro Hu
      ihave H := (ownU_pair (i₀ : UR sig nD τ) (i₀ : UR sig nD τ)) $$ Hu
      icases H with ⟨HL, HR⟩
      imod (Pipeline.fund_ghost (Pipeline.pin (pcfgs (F := F)) adm) (embR : Emb (UR sig nD τ) 𝕄) cellOf_inj) $$ HR with ⟨Hg, Ht⟩
      imodintro
      isplitl [HL]; · iexact HL
      iapply hghost
      isplitl [Hg]; · iexact Hg
      iexact Ht)
    (T₀ := Tpre m) (Tₙ := Tn m)
    (hch := ⟨fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c), bigSep_W0]
      unfold Tpre
      iintro ⟨⟨Hh, -, HO, -, Hp, Hg0, Hg1, Hg2⟩, -⟩
      imodintro
      isplitl [Hh Hp HO]
      · iexists (V0 m c); isplitr; · ipureintro; exact ⟨rfl, rfl, rfl⟩
        isplitl [Hh]; · iexact Hh
        isplitl [Hp]; · iexists _; iexact Hp
        iexists ∅; iexact HO
      isplitl [Hg0]; · iexact Hg0
      isplitl [Hg1]; · iexact Hg1
      iexact Hg2)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold Tn StableHlo.held
      iintro ⟨⟨%W, %hW, Hh, -⟩, HSI⟩
      ihave Hr := (pointsTo_read_all (Pipeline.ucRefs τ sig) (fun b => ((c : Thread nD τ).1, b)) W s') $$ [Hh HSI]
      · isplitl [Hh] <;> iassumption
      icases Hr with ⟨%h, HSI⟩
      imodintro
      isplitr
      · ipureintro
        exact ⟨(h (Proc.devRef .tc main_arg0) (mem_uc main_arg0 (by decide))).trans hW.1,
          (h (Proc.devRef .tc main_arg1) (mem_uc main_arg1 (by decide))).trans hW.2.1,
          (h (Proc.devRef .tc main_arg2) (mem_uc main_arg2 (by decide))).trans hW.2.2⟩
      · iexact HSI)
    (hQ := fun _ h => h)

/-- info: 'Cert.Kernel.Hand.frame' depends on axioms: [propext, Classical.choice, Quot.sound] -/
#guard_msgs in #print axioms frame

end Cert.Kernel.Hand

end
-- ==== Proof.lean ====
/-
  A binarized linear layer against its plain reference, on the extended reals.

  The kernel program centres each of the 11008 weight rows by its mean, takes the sign of every centred entry and the
  row's mean magnitude as its scale (one pallas_call over twenty-two blocks of rows, the last block half outside the
  matrix), converts the activations to the narrower float format (a second call), and in a third call multiplies the
  activations by the sign matrix block by block, scales column o of the product by row o's scale and adds the bias. The
  reference forms wc + (sign wc − wc), multiplies it by the scale, and contracts the activations with that matrix.

  Both are, at every entry (b, s, o), the number (∑ₖ x[b,s,k] · sign(wc[o,k])) · scale[o] + bias[o] when the inputs are
  finite: a change of float format is the identity on the extended reals; for a finite wc the sum wc + (sign wc − wc) is
  sign wc; and the finite scale factors out of the finite sum. Finiteness of the inputs is the precondition.

  The three frames: the reference is a list of host operations whose run is read back; the idealized kernel program's run
  through its three calls and four reshapes is assembled from each call's proof data, and gives every buffer's final
  contents, from which both its frame and its result are read; the word-level program's frame is proved separately
  (there the row sums are not functions of single rows, so the first call's outputs are not named). The one rewrite the
  idealization made, a sign read off the sign bit, is the rule's own statement.
-/
import proofs.«145953_j44349832298614_2_alg».proof.Defs
import proofs.«145953_j44349832298614_2_alg».proof.Proof.Gen.Kernel
import proofs.«145953_j44349832298614_2_alg».proof.Proof.Gen.KernelIdeal
import proofs.«145953_j44349832298614_2_alg».proof.Proof.Gen.ReferenceIdeal
import proofs.«145953_j44349832298614_2_alg».proof.Proof.Gen.ReferenceIdeal.Run
import proofs.«145953_j44349832298614_2_alg».proof.Proof.Gen.ReferenceIdeal.Read
import proofs.«145953_j44349832298614_2_alg».proof.Proof.Gen.Pre_finite_inputs
import proofs.«145953_j44349832298614_2_alg».proof.Proof.KvFinal
import proofs.«145953_j44349832298614_2_alg».proof.Proof.RefValue
import proofs.«145953_j44349832298614_2_alg».proof.Proof.Finite
import proofs.«145953_j44349832298614_2_alg».proof.Proof.KernelFrameRun
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.TcCoe

/-- The word-level program runs to the end and leaves its arguments as launched. -/
theorem frame_kernel : Cert.frame_Kernel := fun m ρ _ => Cert.Kernel.Hand.frame (F := Bits) m ρ

/-- The idealized kernel program runs to the end and leaves its arguments as launched: its run gives every buffer's
    final contents, and the arguments' are the launch contents. -/
theorem frame_ideal : Cert.frame_KernelIdeal := fun m ρ _ =>
  (θ_run Cert.KernelIdeal.defs _ _).mono
    (fun r h c => ⟨(h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c)⟩)
    (Cert.KernelIdeal.Hand.run_all (F := Ideal) m ρ Cert.KernelIdeal.HandValue.local0)

/-- The reference runs to the end and leaves its arguments as launched: its run read back, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization's one rewrite: one with the sign bit of a value is −1 below zero and 1 otherwise. -/
theorem preserves : Cert.preserves_Kernel_KernelIdeal :=
  IdealRules.sign_bit.statement Cert.KernelIdeal.S512x4096 .f32

/-- From memories agreeing on the finite arguments both idealized programs end with the same result: at every entry the
    specification's number of the launched arrays. -/
theorem algebraic : Cert.algebraic_KernelIdeal_ReferenceIdeal := by
  intro m ρ m' ρ' hpre hagree
  refine ⟨fun c => Cert.KernelIdeal.Hand.W6 (F := Ideal) m ρ c (Proc.devRef .tc Cert.KernelIdeal.main_v6), ?_, ?_⟩
  · exact (θ_run Cert.KernelIdeal.defs _ _).mono
      (fun r h c => ⟨h c _ (Cert.KernelIdeal.Hand.mem_uc Cert.KernelIdeal.main_v6 (by decide)),
        (h c _ (Cert.KernelIdeal.Hand.mem_uc Cert.KernelIdeal.main_arg0 (by decide))).trans (Cert.KernelIdeal.Hand.W6_main_arg0 m ρ c),
        (h c _ (Cert.KernelIdeal.Hand.mem_uc Cert.KernelIdeal.main_arg1 (by decide))).trans (Cert.KernelIdeal.Hand.W6_main_arg1 m ρ c),
        (h c _ (Cert.KernelIdeal.Hand.mem_uc Cert.KernelIdeal.main_arg2 (by decide))).trans (Cert.KernelIdeal.Hand.W6_main_arg2 m ρ c)⟩)
      (Cert.KernelIdeal.Hand.run_all (F := Ideal) m ρ Cert.KernelIdeal.HandValue.local0)
  · refine (θ_run Cert.ReferenceIdeal.defs _ _).mono (fun r h c => ⟨(h c).1.trans ?_, (h c).2⟩)
      (Cert.ReferenceIdeal.Value.run (F := Ideal) m' ρ')
    obtain ⟨hx, hw, hb⟩ := Cert.Xnor.Finite.of_pre m hpre c
    rw [(hagree c).1, (hagree c).2.1, (hagree c).2.2, Cert.ReferenceIdeal.Read.val_main_v19_eq]
    funext i
    obtain ⟨bb, s, o, rfl⟩ : ∃ (bb : Fin 4) (s : Fin 2048) (o : Fin 11008), i = ix3 bb s o := ⟨_, _, _, eq_ix3 i⟩
    rw [Cert.Xnor.Ref.val_eq_entry _ _ _ hx hw hb bb s o]
    exact (Cert.KernelIdeal.HandValue.result_entry m ρ c bb s o).symm

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
